-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v151)) (v1 : (c : Dev Cert.KernelIdeal.nD) → Buf (Elt Ideal) ((c.tc : Thread Cert.KernelIdeal.nD Cert.KernelIdeal.τ).loc Cert.KernelIdeal.main_v167)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_v167) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_v241) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S2x5000 : Shape := ⟨2, ![2, 5000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg10 : FVec F S128 .f32) (main_arg11 : FVec F S128x64 .f32) (main_arg12 : FVec F S64 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg11
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg7 : FVec F S128x128 .f32) (main_arg8 : FVec F S128 .f32) (main_arg9 : FVec F S128x128 .f32) (main_arg10 : FVec F S128 .f32) (main_arg11 : FVec F S128x64 .f32) (main_arg12 : FVec F S64 .f32) (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_v33

def fn {F : FTy → Type} [FloatOps F] (main_arg0 : FVec F S50000x128 .f32) (main_arg1 : IVec S2x800000 32) (main_arg2 : FVec F S800000 .f32) (main_arg3 : FVec F S50000x128 .f32) (main_arg4 : IVec S2x800000 32) (main_arg5 : FVec F S800000 .f32) (main_arg6 : IVec S2x5000 32) (main_arg7 : FVec F S128x128 .f32) (main_arg8 : FVec F S128 .f32) (main_arg9 : FVec F S128x128 .f32) (main_arg10 : FVec F S128 .f32) (main_arg11 : FVec F S128x64 .f32) (main_arg12 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S50000x128 .f32 := Host.absf main_arg3
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S800000 .f32 := Host.absf main_arg5
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S2x5000 : Shape := ⟨2, ![2, 5000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S1x5000 : Shape := ⟨2, ![1, 5000]⟩
abbrev S5000 : Shape := ⟨1, ![5000]⟩
abbrev S5000x1 : Shape := ⟨2, ![5000, 1]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 219
  | .vmem => 44
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000x128, .f32⟩
  | 4 => ⟨S2x800000, .i32⟩
  | 5 => ⟨S800000, .f32⟩
  | 6 => ⟨S2x5000, .i32⟩
  | 7 => ⟨S128x128, .f32⟩
  | 8 => ⟨S128, .f32⟩
  | 9 => ⟨S128x128, .f32⟩
  | 10 => ⟨S128, .f32⟩
  | 11 => ⟨S128x64, .f32⟩
  | 12 => ⟨S64, .f32⟩
  | 13 => ⟨S1x800000, .i32⟩
  | 14 => ⟨S800000, .i32⟩
  | 15 => ⟨S1x800000, .i32⟩
  | 16 => ⟨S800000, .i32⟩
  | 17 => ⟨S50000, .i32⟩
  | 18 => ⟨S850000, .i32⟩
  | 19 => ⟨S850000, .i32⟩
  | 20 => ⟨S_, .f32⟩
  | 21 => ⟨S50000, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S1x800000, .i32⟩
  | 55 => ⟨S800000, .i32⟩
  | 56 => ⟨S1x800000, .i32⟩
  | 57 => ⟨S800000, .i32⟩
  | 58 => ⟨S50000, .i32⟩
  | 59 => ⟨S850000, .i32⟩
  | 60 => ⟨S850000, .i32⟩
  | 61 => ⟨S_, .f32⟩
  | 62 => ⟨S50000, .f32⟩
  | 63 => ⟨S850000, .f32⟩
  | 64 => ⟨S_, .f32⟩
  | 65 => ⟨S50000, .f32⟩
  | 66 => ⟨S850000x1, .i32⟩
  | 67 => ⟨S50000, .f32⟩
  | 68 => ⟨S_, .f32⟩
  | 69 => ⟨S50000, .f32⟩
  | 70 => ⟨S50000, .i1⟩
  | 71 => ⟨S50000, .f32⟩
  | 72 => ⟨S_, .f32⟩
  | 73 => ⟨S50000, .f32⟩
  | 74 => ⟨S50000, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000, .f32⟩
  | 84 => ⟨S850000, .f32⟩
  | 85 => ⟨S_, .i32⟩
  | 86 => ⟨S850000, .i32⟩
  | 87 => ⟨S850000, .i1⟩
  | 88 => ⟨S_, .i32⟩
  | 89 => ⟨S850000, .i32⟩
  | 90 => ⟨S850000, .i32⟩
  | 91 => ⟨S850000, .i32⟩
  | 92 => ⟨S850000x1, .i32⟩
  | 93 => ⟨S850000, .f32⟩
  | 94 => ⟨S850000, .f32⟩
  | 95 => ⟨S50000x128, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000x128, .f32⟩
  | 105 => ⟨S850000x1, .f32⟩
  | 106 => ⟨S850000x128, .f32⟩
  | 107 => ⟨S850000x128, .f32⟩
  | 108 => ⟨S_, .f32⟩
  | 109 => ⟨S50000x128, .f32⟩
  | 110 => ⟨S850000x1, .i32⟩
  | 111 => ⟨S50000x128, .f32⟩
  | 112 => ⟨S1x128, .f32⟩
  | 113 => ⟨S50000x128, .f32⟩
  | 114 => ⟨S50000x128, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000x128, .f32⟩
  | 124 => ⟨S850000x1, .f32⟩
  | 125 => ⟨S850000x128, .f32⟩
  | 126 => ⟨S850000x128, .f32⟩
  | 127 => ⟨S_, .f32⟩
  | _ => ⟨S50000x128, .f32⟩

abbrev hbmTy0_1 (i : Nat) : BufTy := match i % 128 with
  | 0 => ⟨S50000x128, .f32⟩
  | 1 => ⟨S850000x1, .i32⟩
  | 2 => ⟨S50000x128, .f32⟩
  | 3 => ⟨S1x128, .f32⟩
  | 4 => ⟨S50000x128, .f32⟩
  | 5 => ⟨S_, .f32⟩
  | 6 => ⟨S50000x128, .f32⟩
  | 7 => ⟨S1x5000, .i32⟩
  | 8 => ⟨S5000, .i32⟩
  | 9 => ⟨S1x5000, .i32⟩
  | 10 => ⟨S5000, .i32⟩
  | 11 => ⟨S_, .i32⟩
  | 12 => ⟨S5000, .i32⟩
  | 13 => ⟨S5000, .i1⟩
  | 14 => ⟨S_, .i32⟩
  | 15 => ⟨S5000, .i32⟩
  | 16 => ⟨S5000, .i32⟩
  | 17 => ⟨S5000, .i32⟩
  | 18 => ⟨S5000x1, .i32⟩
  | 19 => ⟨S5000x128, .f32⟩
  | 20 => ⟨S_, .i32⟩
  | 21 => ⟨S5000, .i32⟩
  | 22 => ⟨S5000, .i1⟩
  | 23 => ⟨S_, .i32⟩
  | 24 => ⟨S5000, .i32⟩
  | 25 => ⟨S5000, .i32⟩
  | 26 => ⟨S5000, .i32⟩
  | 27 => ⟨S5000x1, .i32⟩
  | 28 => ⟨S50000x128, .f32⟩
  | 29 => ⟨S_, .f32⟩
  | 30 => ⟨S50000x128, .f32⟩
  | 31 => ⟨S1x5000, .i32⟩
  | 32 => ⟨S5000, .i32⟩
  | 33 => ⟨S1x5000, .i32⟩
  | 34 => ⟨S5000, .i32⟩
  | 35 => ⟨S_, .i32⟩
  | 36 => ⟨S5000, .i32⟩
  | 37 => ⟨S5000, .i1⟩
  | 38 => ⟨S_, .i32⟩
  | 39 => ⟨S5000, .i32⟩
  | 40 => ⟨S5000, .i32⟩
  | 41 => ⟨S5000, .i32⟩
  | 42 => ⟨S5000x1, .i32⟩
  | 43 => ⟨S5000x128, .f32⟩
  | 44 => ⟨S_, .i32⟩
  | 45 => ⟨S5000, .i32⟩
  | 46 => ⟨S5000, .i1⟩
  | 47 => ⟨S_, .i32⟩
  | 48 => ⟨S5000, .i32⟩
  | 49 => ⟨S5000, .i32⟩
  | 50 => ⟨S5000, .i32⟩
  | 51 => ⟨S5000x1, .i32⟩
  | 52 => ⟨S50000x128, .f32⟩
  | 53 => ⟨S50000x64, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x64, .f32⟩
  | 63 => ⟨S850000x1, .f32⟩
  | 64 => ⟨S850000x64, .f32⟩
  | 65 => ⟨S850000x64, .f32⟩
  | 66 => ⟨S_, .f32⟩
  | 67 => ⟨S50000x64, .f32⟩
  | 68 => ⟨S850000x1, .i32⟩
  | 69 => ⟨S50000x64, .f32⟩
  | 70 => ⟨S1x64, .f32⟩
  | 71 => ⟨S50000x64, .f32⟩
  | 72 => ⟨S50000x64, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x64, .f32⟩
  | 82 => ⟨S850000x1, .f32⟩
  | 83 => ⟨S850000x64, .f32⟩
  | 84 => ⟨S850000x64, .f32⟩
  | 85 => ⟨S_, .f32⟩
  | 86 => ⟨S50000x64, .f32⟩
  | 87 => ⟨S850000x1, .i32⟩
  | 88 => ⟨S50000x64, .f32⟩
  | 89 => ⟨S1x64, .f32⟩
  | 90 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_17 : Ref sig .tc := ⟨.hbm, 115, rfl⟩
abbrev main_v83 : Ref sig .tc := ⟨.hbm, 116, rfl⟩
abbrev main_v84 : Ref sig .tc := ⟨.hbm, 117, rfl⟩
abbrev main_c_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_19 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_20 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_c_21 : Ref sig .tc := ⟨.hbm, 139, rfl⟩
abbrev main_v103 : Ref sig .tc := ⟨.hbm, 140, rfl⟩
abbrev main_v104 : Ref sig .tc := ⟨.hbm, 141, rfl⟩
abbrev main_c_22 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_c_23 : Ref sig .tc := ⟨.hbm, 148, rfl⟩
abbrev main_v110 : Ref sig .tc := ⟨.hbm, 149, rfl⟩
abbrev main_v111 : Ref sig .tc := ⟨.hbm, 150, rfl⟩
abbrev main_c_24 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_25 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_c_26 : Ref sig .tc := ⟨.hbm, 163, rfl⟩
abbrev main_v122 : Ref sig .tc := ⟨.hbm, 164, rfl⟩
abbrev main_v123 : Ref sig .tc := ⟨.hbm, 165, rfl⟩
abbrev main_c_27 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_c_28 : Ref sig .tc := ⟨.hbm, 172, rfl⟩
abbrev main_v129 : Ref sig .tc := ⟨.hbm, 173, rfl⟩
abbrev main_v130 : Ref sig .tc := ⟨.hbm, 174, rfl⟩
abbrev main_c_29 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_c_30 : Ref sig .tc := ⟨.hbm, 182, rfl⟩
abbrev main_v137 : Ref sig .tc := ⟨.hbm, 183, rfl⟩
abbrev main_v138 : Ref sig .tc := ⟨.hbm, 184, rfl⟩
abbrev main_c_31 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_32 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_c_33 : Ref sig .tc := ⟨.hbm, 201, rfl⟩
abbrev main_v153 : Ref sig .tc := ⟨.hbm, 202, rfl⟩
abbrev main_v154 : Ref sig .tc := ⟨.hbm, 203, rfl⟩
abbrev main_c_34 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_cst_35 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg3_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg1_1 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg3_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg2_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem3_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem1_1 : DmaSem sig := 35
abbrev cc6_sem2_0 : DmaSem sig := 36
abbrev cc6_sem3_0 : DmaSem sig := 37
abbrev cc6_sem3_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem2_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x5000_S1x5000_1_0 : S2x5000.Slices ![1, 0] S1x5000
  shapeCasts_S1x5000_S5000 : S1x5000.ShapeCasts S5000
  slices_S2x5000_S1x5000_0_0 : S2x5000.Slices ![0, 0] S1x5000
  bcast_S_S5000 : S_.BroadcastsInDim S5000 (![] : Fin 0 → Fin S5000.rank)
  bcast_S5000_S5000x1_0 : S5000.BroadcastsInDim S5000x1 (![0] : Fin 1 → Fin S5000x1.rank)
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S5000x1_S5000x128_1_0_n_n_0_1_1128_wf : GatherDims.WF S50000x128 S5000x1 S5000x128 [1] [0] [] [0] [] 1 ![1, 128]
  scatter_S50000x128_S5000x1_S5000x128_1_0_0_1_wf : ScatterDims.WF S50000x128 S5000x1 S5000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x64.size a ≤ S128x64.size a
  hwx6_2 : ∀ i : grid6.Coords, EltTy.bits .f32 = 32 ∨ (Rect.block (s := S128x64) S128x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S50000x64.size a
  hwx7_2 : ∀ i : grid7.Coords, EltTy.bits .f32 = 32 ∨ (Rect.block (s := S50000x64) S5000x64.size (cc7_transform_2 i) (hinb7_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S5000x1_S5000x128_1_0_n_n_0_1_1128 : GatherDims S50000x128 S5000x1 S5000x128 where
  offsetDims := [1]
  collapsedSliceDims := [0]
  operandBatchingDims := []
  startIndicesBatchingDims := []
  startIndexMap := [0]
  indexVectorDim := 1
  sliceSizes := ![1, 128]
  wf := gather_S50000x128_S5000x1_S5000x128_1_0_n_n_0_1_1128_wf
def scatter_S50000x128_S5000x1_S5000x128_1_0_0_1 : ScatterDims S50000x128 S5000x1 S5000x128 where
  updateWindowDims := [1]
  insertedWindowDims := [0]
  scatterDimsToOperandDims := [0]
  indexVectorDim := 1
  wf := scatter_S50000x128_S5000x1_S5000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v66) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v79) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v80) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v81) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg3) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v82) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v95) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v96) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v97) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v81) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v135) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v136) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v149) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v150) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v151) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v97) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v116) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg11) S128x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v152) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v165) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v166) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v167) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S2x5000 : Shape := ⟨2, ![2, 5000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1x5000 : Shape := ⟨2, ![1, 5000]⟩
abbrev S5000 : Shape := ⟨1, ![5000]⟩
abbrev S5000x1 : Shape := ⟨2, ![5000, 1]⟩
abbrev S5000x128 : Shape := ⟨2, ![5000, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 313
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000x128, .f32⟩
  | 4 => ⟨S2x800000, .i32⟩
  | 5 => ⟨S800000, .f32⟩
  | 6 => ⟨S2x5000, .i32⟩
  | 7 => ⟨S128x128, .f32⟩
  | 8 => ⟨S128, .f32⟩
  | 9 => ⟨S128x128, .f32⟩
  | 10 => ⟨S128, .f32⟩
  | 11 => ⟨S128x64, .f32⟩
  | 12 => ⟨S64, .f32⟩
  | 13 => ⟨S50000x128, .f32⟩
  | 14 => ⟨S1x800000, .i32⟩
  | 15 => ⟨S800000, .i32⟩
  | 16 => ⟨S1x800000, .i32⟩
  | 17 => ⟨S800000, .i32⟩
  | 18 => ⟨S50000, .i32⟩
  | 19 => ⟨S850000, .i32⟩
  | 20 => ⟨S850000, .i32⟩
  | 21 => ⟨S_, .f32⟩
  | 22 => ⟨S50000, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S850000x1, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x128, .f32⟩
  | 66 => ⟨S850000x128, .f32⟩
  | 67 => ⟨S_, .f32⟩
  | 68 => ⟨S50000x128, .f32⟩
  | 69 => ⟨S850000x1, .i32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S1x800000, .i32⟩
  | 79 => ⟨S800000, .i32⟩
  | 80 => ⟨S1x800000, .i32⟩
  | 81 => ⟨S800000, .i32⟩
  | 82 => ⟨S50000, .i32⟩
  | 83 => ⟨S850000, .i32⟩
  | 84 => ⟨S850000, .i32⟩
  | 85 => ⟨S_, .f32⟩
  | 86 => ⟨S50000, .f32⟩
  | 87 => ⟨S850000, .f32⟩
  | 88 => ⟨S_, .f32⟩
  | 89 => ⟨S50000, .f32⟩
  | 90 => ⟨S850000x1, .i32⟩
  | 91 => ⟨S50000, .f32⟩
  | 92 => ⟨S_, .f32⟩
  | 93 => ⟨S50000, .f32⟩
  | 94 => ⟨S50000, .i1⟩
  | 95 => ⟨S50000, .f32⟩
  | 96 => ⟨S_, .f32⟩
  | 97 => ⟨S50000, .f32⟩
  | 98 => ⟨S50000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000, .f32⟩
  | 118 => ⟨S850000, .f32⟩
  | 119 => ⟨S850000x1, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x128, .f32⟩

abbrev hbmTy0_1 (i : Nat) : BufTy := match i % 128 with
  | 0 => ⟨S850000x128, .f32⟩
  | 1 => ⟨S850000x128, .f32⟩
  | 2 => ⟨S850000x128, .f32⟩
  | 3 => ⟨S_, .f32⟩
  | 4 => ⟨S50000x128, .f32⟩
  | 5 => ⟨S850000x1, .i32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S_, .f32⟩
  | 14 => ⟨S50000x128, .f32⟩
  | 15 => ⟨S1x5000, .i32⟩
  | 16 => ⟨S5000, .i32⟩
  | 17 => ⟨S1x5000, .i32⟩
  | 18 => ⟨S5000, .i32⟩
  | 19 => ⟨S_, .i32⟩
  | 20 => ⟨S5000, .i32⟩
  | 21 => ⟨S5000, .i1⟩
  | 22 => ⟨S_, .i32⟩
  | 23 => ⟨S5000, .i32⟩
  | 24 => ⟨S5000, .i32⟩
  | 25 => ⟨S5000, .i32⟩
  | 26 => ⟨S5000x1, .i32⟩
  | 27 => ⟨S5000x128, .f32⟩
  | 28 => ⟨S_, .i32⟩
  | 29 => ⟨S5000, .i32⟩
  | 30 => ⟨S5000, .i1⟩
  | 31 => ⟨S_, .i32⟩
  | 32 => ⟨S5000, .i32⟩
  | 33 => ⟨S5000, .i32⟩
  | 34 => ⟨S5000, .i32⟩
  | 35 => ⟨S5000x1, .i32⟩
  | 36 => ⟨S50000x128, .f32⟩
  | 37 => ⟨S_, .f32⟩
  | 38 => ⟨S50000x128, .f32⟩
  | 39 => ⟨S1x5000, .i32⟩
  | 40 => ⟨S5000, .i32⟩
  | 41 => ⟨S1x5000, .i32⟩
  | 42 => ⟨S5000, .i32⟩
  | 43 => ⟨S_, .i32⟩
  | 44 => ⟨S5000, .i32⟩
  | 45 => ⟨S5000, .i1⟩
  | 46 => ⟨S_, .i32⟩
  | 47 => ⟨S5000, .i32⟩
  | 48 => ⟨S5000, .i32⟩
  | 49 => ⟨S5000, .i32⟩
  | 50 => ⟨S5000x1, .i32⟩
  | 51 => ⟨S5000x128, .f32⟩
  | 52 => ⟨S_, .i32⟩
  | 53 => ⟨S5000, .i32⟩
  | 54 => ⟨S5000, .i1⟩
  | 55 => ⟨S_, .i32⟩
  | 56 => ⟨S5000, .i32⟩
  | 57 => ⟨S5000, .i32⟩
  | 58 => ⟨S5000, .i32⟩
  | 59 => ⟨S5000x1, .i32⟩
  | 60 => ⟨S50000x128, .f32⟩
  | 61 => ⟨S50000x128, .f32⟩
  | 62 => ⟨S50000x64, .f32⟩
  | 63 => ⟨S1x800000, .i32⟩
  | 64 => ⟨S800000, .i32⟩
  | 65 => ⟨S1x800000, .i32⟩
  | 66 => ⟨S800000, .i32⟩
  | 67 => ⟨S50000, .i32⟩
  | 68 => ⟨S850000, .i32⟩
  | 69 => ⟨S850000, .i32⟩
  | 70 => ⟨S_, .f32⟩
  | 71 => ⟨S50000, .f32⟩
  | 72 => ⟨S850000, .f32⟩
  | 73 => ⟨S_, .f32⟩
  | 74 => ⟨S50000, .f32⟩
  | 75 => ⟨S850000x1, .i32⟩
  | 76 => ⟨S50000, .f32⟩
  | 77 => ⟨S_, .f32⟩
  | 78 => ⟨S50000, .f32⟩
  | 79 => ⟨S50000, .i1⟩
  | 80 => ⟨S50000, .f32⟩
  | 81 => ⟨S_, .f32⟩
  | 82 => ⟨S50000, .f32⟩
  | 83 => ⟨S50000, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000, .f32⟩
  | 93 => ⟨S850000, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000, .f32⟩
  | 103 => ⟨S850000, .f32⟩
  | 104 => ⟨S850000x1, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000x64, .f32⟩
  | 114 => ⟨S850000x64, .f32⟩
  | 115 => ⟨S850000x64, .f32⟩
  | 116 => ⟨S_, .f32⟩
  | 117 => ⟨S50000x64, .f32⟩
  | 118 => ⟨S850000x1, .i32⟩
  | 119 => ⟨S50000x64, .f32⟩
  | 120 => ⟨S1x64, .f32⟩
  | 121 => ⟨S50000x64, .f32⟩
  | 122 => ⟨S50000x64, .f32⟩
  | 123 => ⟨S50000x128, .f32⟩
  | 124 => ⟨S50000x64, .f32⟩
  | 125 => ⟨S1x800000, .i32⟩
  | 126 => ⟨S800000, .i32⟩
  | 127 => ⟨S1x800000, .i32⟩
  | _ => ⟨S50000x128, .f32⟩

abbrev hbmTy0_2 (i : Nat) : BufTy := match i % 128 with
  | 0 => ⟨S800000, .i32⟩
  | 1 => ⟨S50000, .i32⟩
  | 2 => ⟨S850000, .i32⟩
  | 3 => ⟨S850000, .i32⟩
  | 4 => ⟨S_, .f32⟩
  | 5 => ⟨S50000, .f32⟩
  | 6 => ⟨S850000, .f32⟩
  | 7 => ⟨S_, .f32⟩
  | 8 => ⟨S50000, .f32⟩
  | 9 => ⟨S850000x1, .i32⟩
  | 10 => ⟨S50000, .f32⟩
  | 11 => ⟨S_, .f32⟩
  | 12 => ⟨S50000, .f32⟩
  | 13 => ⟨S50000, .i1⟩
  | 14 => ⟨S50000, .f32⟩
  | 15 => ⟨S_, .f32⟩
  | 16 => ⟨S50000, .f32⟩
  | 17 => ⟨S50000, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S850000, .f32⟩
  | 27 => ⟨S850000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S850000, .f32⟩
  | 38 => ⟨S850000x1, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000x64, .f32⟩
  | 48 => ⟨S850000x64, .f32⟩
  | 49 => ⟨S850000x64, .f32⟩
  | 50 => ⟨S_, .f32⟩
  | 51 => ⟨S50000x64, .f32⟩
  | 52 => ⟨S850000x1, .i32⟩
  | 53 => ⟨S50000x64, .f32⟩
  | 54 => ⟨S1x64, .f32⟩
  | 55 => ⟨S50000x64, .f32⟩
  | 56 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call1_cst : Ref sig .tc := ⟨.hbm, 74, rfl⟩
abbrev main_call1_v0 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_9 : Ref sig .tc := ⟨.hbm, 85, rfl⟩
abbrev main_v59 : Ref sig .tc := ⟨.hbm, 86, rfl⟩
abbrev main_v60 : Ref sig .tc := ⟨.hbm, 87, rfl⟩
abbrev main_cst_10 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_c_13 : Ref sig .tc := ⟨.hbm, 99, rfl⟩
abbrev main_v69 : Ref sig .tc := ⟨.hbm, 100, rfl⟩
abbrev main_v70 : Ref sig .tc := ⟨.hbm, 101, rfl⟩
abbrev main_c_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_15 : Ref sig .tc := ⟨.hbm, 109, rfl⟩
abbrev main_v77 : Ref sig .tc := ⟨.hbm, 110, rfl⟩
abbrev main_v78 : Ref sig .tc := ⟨.hbm, 111, rfl⟩
abbrev main_c_16 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_17 : Ref sig .tc := ⟨.hbm, 120, rfl⟩
abbrev main_v86 : Ref sig .tc := ⟨.hbm, 121, rfl⟩
abbrev main_v87 : Ref sig .tc := ⟨.hbm, 122, rfl⟩
abbrev main_c_18 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_19 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_call3_cst : Ref sig .tc := ⟨.hbm, 138, rfl⟩
abbrev main_call3_v0 : Ref sig .tc := ⟨.hbm, 139, rfl⟩
abbrev main_v101 : Ref sig .tc := ⟨.hbm, 140, rfl⟩
abbrev main_cst_20 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_c_21 : Ref sig .tc := ⟨.hbm, 147, rfl⟩
abbrev main_v107 : Ref sig .tc := ⟨.hbm, 148, rfl⟩
abbrev main_v108 : Ref sig .tc := ⟨.hbm, 149, rfl⟩
abbrev main_c_22 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_c_23 : Ref sig .tc := ⟨.hbm, 156, rfl⟩
abbrev main_v114 : Ref sig .tc := ⟨.hbm, 157, rfl⟩
abbrev main_v115 : Ref sig .tc := ⟨.hbm, 158, rfl⟩
abbrev main_c_24 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_25 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_c_26 : Ref sig .tc := ⟨.hbm, 171, rfl⟩
abbrev main_v126 : Ref sig .tc := ⟨.hbm, 172, rfl⟩
abbrev main_v127 : Ref sig .tc := ⟨.hbm, 173, rfl⟩
abbrev main_c_27 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_c_28 : Ref sig .tc := ⟨.hbm, 180, rfl⟩
abbrev main_v133 : Ref sig .tc := ⟨.hbm, 181, rfl⟩
abbrev main_v134 : Ref sig .tc := ⟨.hbm, 182, rfl⟩
abbrev main_c_29 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_cst_30 : Ref sig .tc := ⟨.hbm, 198, rfl⟩
abbrev main_v149 : Ref sig .tc := ⟨.hbm, 199, rfl⟩
abbrev main_v150 : Ref sig .tc := ⟨.hbm, 200, rfl⟩
abbrev main_cst_31 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_cst_32 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_33 : Ref sig .tc := ⟨.hbm, 209, rfl⟩
abbrev main_v157 : Ref sig .tc := ⟨.hbm, 210, rfl⟩
abbrev main_v158 : Ref sig .tc := ⟨.hbm, 211, rfl⟩
abbrev main_c_34 : Ref sig .tc := ⟨.hbm, 212, rfl⟩
abbrev main_v159 : Ref sig .tc := ⟨.hbm, 213, rfl⟩
abbrev main_v160 : Ref sig .tc := ⟨.hbm, 214, rfl⟩
abbrev main_c_35 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_c_36 : Ref sig .tc := ⟨.hbm, 222, rfl⟩
abbrev main_v167 : Ref sig .tc := ⟨.hbm, 223, rfl⟩
abbrev main_v168 : Ref sig .tc := ⟨.hbm, 224, rfl⟩
abbrev main_c_37 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_c_38 : Ref sig .tc := ⟨.hbm, 233, rfl⟩
abbrev main_v176 : Ref sig .tc := ⟨.hbm, 234, rfl⟩
abbrev main_v177 : Ref sig .tc := ⟨.hbm, 235, rfl⟩
abbrev main_c_39 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_cst_40 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_cst_41 : Ref sig .tc := ⟨.hbm, 260, rfl⟩
abbrev main_v200 : Ref sig .tc := ⟨.hbm, 261, rfl⟩
abbrev main_v201 : Ref sig .tc := ⟨.hbm, 262, rfl⟩
abbrev main_cst_42 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_cst_43 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_cst_44 : Ref sig .tc := ⟨.hbm, 271, rfl⟩
abbrev main_v208 : Ref sig .tc := ⟨.hbm, 272, rfl⟩
abbrev main_v209 : Ref sig .tc := ⟨.hbm, 273, rfl⟩
abbrev main_c_45 : Ref sig .tc := ⟨.hbm, 274, rfl⟩
abbrev main_v210 : Ref sig .tc := ⟨.hbm, 275, rfl⟩
abbrev main_v211 : Ref sig .tc := ⟨.hbm, 276, rfl⟩
abbrev main_c_46 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_c_47 : Ref sig .tc := ⟨.hbm, 284, rfl⟩
abbrev main_v218 : Ref sig .tc := ⟨.hbm, 285, rfl⟩
abbrev main_v219 : Ref sig .tc := ⟨.hbm, 286, rfl⟩
abbrev main_c_48 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_c_49 : Ref sig .tc := ⟨.hbm, 295, rfl⟩
abbrev main_v227 : Ref sig .tc := ⟨.hbm, 296, rfl⟩
abbrev main_v228 : Ref sig .tc := ⟨.hbm, 297, rfl⟩
abbrev main_c_50 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_cst_51 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x5000_S1x5000_1_0 : S2x5000.Slices ![1, 0] S1x5000
  shapeCasts_S1x5000_S5000 : S1x5000.ShapeCasts S5000
  slices_S2x5000_S1x5000_0_0 : S2x5000.Slices ![0, 0] S1x5000
  bcast_S_S5000 : S_.BroadcastsInDim S5000 (![] : Fin 0 → Fin S5000.rank)
  bcast_S5000_S5000x1_0 : S5000.BroadcastsInDim S5000x1 (![0] : Fin 1 → Fin S5000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S5000x1_S5000x128_1_0_n_n_0_1_1128_wf : GatherDims.WF S50000x128 S5000x1 S5000x128 [1] [0] [] [0] [] 1 ![1, 128]
  scatter_S50000x128_S5000x1_S5000x128_1_0_0_1_wf : ScatterDims.WF S50000x128 S5000x1 S5000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S5000x1_S5000x128_1_0_n_n_0_1_1128 : GatherDims S50000x128 S5000x1 S5000x128 where
  offsetDims := [1]
  collapsedSliceDims := [0]
  operandBatchingDims := []
  startIndicesBatchingDims := []
  startIndexMap := [0]
  indexVectorDim := 1
  sliceSizes := ![1, 128]
  wf := gather_S50000x128_S5000x1_S5000x128_1_0_n_n_0_1_1128_wf
def scatter_S50000x128_S5000x1_S5000x128_1_0_0_1 : ScatterDims S50000x128 S5000x1 S5000x128 where
  updateWindowDims := [1]
  insertedWindowDims := [0]
  scatterDimsToOperandDims := [0]
  indexVectorDim := 1
  wf := scatter_S50000x128_S5000x1_S5000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The run of the whole program with its two results named.

  The program is eighteen segments: stretches of host operations and eight tiled regions.  Every weakly fair execution
  runs them in order and ends with every buffer at the last segment boundary's contents; read at the two result buffers
  this names what the program returns, and read at the thirteen arguments it says they are unchanged.
-/
import proofs.«168704_j55499567399318_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the two results at the last boundary's contents and
    the arguments as launched. -/
theorem run_results : θ_run defs (onTc (τ := τ) (main (F := F))) ⟨m, fun _ => 0, ρ⟩ (fun r => ∀ c : Dev nD,
      r.2.mem ((c.tc : Thread nD τ).loc main_v151) = W18 m ρ c (Proc.devRef .tc main_v151)
      ∧ r.2.mem ((c.tc : Thread nD τ).loc main_v167) = W18 m ρ c (Proc.devRef .tc main_v167)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v151 (by decide)), h c _ (mem_uc main_v167 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c)⟩)

end Cert.KernelIdeal.Gen

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.Layers.lean ====
/-
  The four dense steps of the two-layer graph convolution, as whole-array functions, and each read at an index.

  A graph-convolution layer is  out = S · (X W) + b  with S the normalised adjacency operator (a gather of rows,
  a scaling by the edge norm, a segment sum).  The dense steps around the sparse one are: the projection
  X ↦ X W; the projection of a sum (H + H') ↦ (H + H') W; the bias with a clamp at zero  A ↦ max(A + b, 0);
  and the bias alone  A ↦ A + b, the bias b being a single row added to every row.  They are spelt here through the
  host operations (a dot_general, an elementwise add and maximum, two broadcasts), and each is read at an entry (r, q):
  the projections as the sum over l of x(r, l) · w(l, q), the bias steps pointwise with the bias read at column q.
-/
import proofs.«168704_j55499567399318_1_alg».proof.Proof.Gen.ReferenceIdeal
import proofs.«168704_j55499567399318_1_alg».proof.Proof.LibPlainDot
import Idealize.ShloMosaic.Lib.Pipeline.Value
import Idealize.ShloMosaic.Lib.ValueIdx

noncomputable section

open scoped BigOperators

namespace Cert.Layers

open Idealize.ShloMosaic Idealize.ShloMosaic.ValueIdx Cert.ReferenceIdeal Cert.ReferenceIdeal.Gen

variable {F : FTy → Type} [FloatOps F]

/-- X ↦ X W for a 50000×128 feature matrix and a 128×128 weight. -/
def proj128 (x : FVec F S50000x128 .f32) (w : FVec F S128x128 .f32) : FVec F S50000x128 .f32 :=
  Host.dotGeneral dot_S50000x128_S128x128_S50000x128_1_0_0_1_n_n none x w

/-- (H, H') ↦ (H + H') W for 50000×128 features and a 128×64 weight. -/
def proj64 (h s : FVec F S50000x128 .f32) (w : FVec F S128x64 .f32) : FVec F S50000x64 .f32 :=
  Host.dotGeneral dot_S50000x128_S128x64_S50000x64_1_0_0_1_n_n none (addf h s) w

/-- A ↦ max(A + b, 0), the bias a 1×128 row. -/
def biasRelu (agg : FVec F S50000x128 .f32) (b : FVec F S1x128 .f32) : FVec F S50000x128 .f32 :=
  maximumf (addf agg (broadcastInDim S50000x128 ![0, 1] bcast_S1x128_S50000x128_0_1 b))
    (broadcastInDim S50000x128 ![] bcast_S_S50000x128 (constant S_ .f32 0x00000000#32))

/-- A ↦ A + b, the bias a 1×64 row. -/
def bias64 (agg : FVec F S50000x64 .f32) (b : FVec F S1x64 .f32) : FVec F S50000x64 .f32 :=
  addf agg (broadcastInDim S50000x64 ![0, 1] bcast_S1x64_S50000x64_0_1 b)

/-- Entry (r, q) of X W is the inner product of row r of X with column q of W. -/
theorem proj128_apply (x : FVec Ideal S50000x128 .f32) (w : FVec Ideal S128x128 .f32) (r : Fin 50000) (q : Fin 128) :
    proj128 x w (ix2 r q) = ∑ l : Fin 128, x (ix2 r l) * w (ix2 l q) :=
  Cert.LibPlainDot.dotGeneral_apply (M := 50000) (K := 128) (N := 128) none .single x w r q

/-- Entry (r, q) of (H + H') W is the inner product of row r of H + H' with column q of W. -/
theorem proj64_apply (h s : FVec Ideal S50000x128 .f32) (w : FVec Ideal S128x64 .f32) (r : Fin 50000) (q : Fin 64) :
    proj64 h s w (ix2 r q) = ∑ l : Fin 128, (h (ix2 r l) + s (ix2 r l)) * w (ix2 l q) :=
  Cert.LibPlainDot.dotGeneral_apply (M := 50000) (K := 128) (N := 64) none .single (addf h s) w r q

/-- Entry (r, q) of max(A + b, 0): the bias is read at column q. -/
theorem biasRelu_apply (agg : FVec F S50000x128 .f32) (b : FVec F S1x128 .f32) (r : Fin 50000) (q : Fin 128) :
    biasRelu agg b (ix2 r q)
      = FloatOps.maximumf (FloatOps.addf (agg (ix2 r q)) (b (ix2 (0 : Fin 1) q))) (FloatOps.ofBits .f32 0x00000000#32) := by
  show FloatOps.maximumf (FloatOps.addf (agg (ix2 r q)) (broadcastInDim S50000x128 ![0, 1] bcast_S1x128_S50000x128_0_1 b (ix2 r q)))
    (broadcastInDim S50000x128 ![] bcast_S_S50000x128 (constant S_ .f32 0x00000000#32) (ix2 r q)) = _
  rw [broadcastInDim_apply _ bcast_S1x128_S50000x128_0_1 b (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])]
  rfl

/-- Entry (r, q) of A + b: the bias is read at column q. -/
theorem bias64_apply (agg : FVec F S50000x64 .f32) (b : FVec F S1x64 .f32) (r : Fin 50000) (q : Fin 64) :
    bias64 agg b (ix2 r q) = FloatOps.addf (agg (ix2 r q)) (b (ix2 (0 : Fin 1) q)) := by
  show FloatOps.addf (agg (ix2 r q)) (broadcastInDim S50000x64 ![0, 1] bcast_S1x64_S50000x64_0_1 b (ix2 r q)) = _
  rw [broadcastInDim_apply _ bcast_S1x64_S50000x64_0_1 b (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])]

end Cert.Layers

end
-- ==== Proof.Region0.lean ====
/-
  Region 0: the projection X ↦ X W over row tiles.
  The 50000 rows of X are cut into ten tiles of 5000 rows and the 128×128 weight is held whole; at tile t the body
  multiplies the tile by the weight (a matrix product into a zero accumulator, the operands narrowed first, which
  changes nothing over the extended reals) and writes the product back as tile t of the result.  Entry (p, q) of that
  product is the inner product of the tile's row p with column q of W, which is entry (5000 t + p, q) of X W; the
  tiles cover every row, so the array ends holding X W.
-/
import proofs.«168704_j55499567399318_1_alg».proof.Proof.Gen.KernelIdeal.Frame
import proofs.«168704_j55499567399318_1_alg».proof.Proof.Layers

set_option maxRecDepth 16384

noncomputable section

open scoped BigOperators

namespace Cert.KernelIdeal.Region0

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- X W over the arrays' own index types. -/
abbrev G (A : S50000x128.Idx → Elt Ideal .f32) (B : S128x128.Idx → Elt Ideal .f32) : S50000x128.Idx → Elt Ideal .f32 :=
  Cert.Layers.proj128 (F := Ideal) A B

/-- The body's value at entry (p, q) of a tile: the inner product of the tile's row p with the weight's column q. -/
theorem pay_apply (x0 : FVec Ideal S5000x128 .f32) (x1 : FVec Ideal S128x128 .f32) (p : Fin 5000) (q : Fin 128) :
    k0_pay1 x0 x1 (ix2 p q) = ∑ l : Fin 128, x0 (ix2 p l) * x1 (ix2 l q) := by
  unfold k0_pay1
  refine (Cert.LibPlainDot.matmul_zero_apply (M := 5000) (K := 128) (N := 128) none
    (truncf .bf16 x0 bitsLt_bf16_f32) (truncf .bf16 x1 bitsLt_bf16_f32) p q).trans ?_
  rfl

/-- A tile entry of the body's value is the entry of X W on the row the tile's row sits on, when the tile's row p is
    row r of X and the weight block is the whole weight. -/
theorem block_eq (A : FVec Ideal S50000x128 .f32) (B : FVec Ideal S128x128 .f32)
    (x0 : FVec Ideal S5000x128 .f32) (x1 : FVec Ideal S128x128 .f32) (p : Fin 5000) (q : Fin 128) (r : Fin 50000)
    (h0 : ∀ l : Fin 128, x0 (ix2 p l) = A (ix2 r l)) (h1 : x1 = B) :
    k0_pay1 x0 x1 (ix2 p q) = Cert.Layers.proj128 (F := Ideal) A B (ix2 r q) := by
  subst h1
  rw [pay_apply, Cert.Layers.proj128_apply]
  exact Finset.sum_congr rfl fun l _ => by rw [h0 l]

/-- The printed index maps over the ten tiles: tile t of X and of the result is row block t; the weight block is
    always the whole weight. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What tile t writes back is tile t of X W, X and W the arrays as the region finds them. -/
theorem flushed_eq (c : Dev nD) (t : Fin cfg0.N) :
    (dat0 V c).flushed 2 t
      = ((cfg0.win 2).blk t).view.read (Elt Ideal) (G (V c main_arg0) (V c main_arg7)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  have hN : cfg0.N = 10 := N_0
  have ht : t.val < 10 := hN ▸ t.isLt
  funext j
  obtain ⟨p, q, rfl⟩ : ∃ (p : Fin 5000) (q : Fin 128), j = ix2 p q := ⟨j 0, j 1, eq_ix2 j⟩
  have hp : p.val < 5000 := p.isLt
  obtain ⟨r, hr⟩ : ∃ r : Fin 50000, r.val = t.val * 5000 + p.val := ⟨⟨t.val * 5000 + p.val, by omega⟩, rfl⟩
  have hemb : ((cfg0.win 2).blk t).view.emb (ix2 p q) = ix2 r q := by
    funext a; apply Fin.ext
    match a with
    | ⟨0, _⟩ => show win0_2.index t (0 : Fin 2) * 5000 + 1 * p.val = r.val; omega
    | ⟨1, _⟩ => show win0_2.index t (1 : Fin 2) * 128 + 1 * q.val = q.val; omega
  show k0_pay1 (iblk0 V c 0 t) (iblk0 V c 1 t) (ix2 p q)
    = Cert.Layers.proj128 (F := Ideal) (V c main_arg0) (V c main_arg7) (((cfg0.win 2).blk t).view.emb (ix2 p q))
  rw [hemb]
  refine block_eq _ _ _ _ p q r ?_ ?_
  · intro l
    show V c main_arg0 (((cfg0.win 0).blk t).view.emb (ix2 p l)) = V c main_arg0 (ix2 r l)
    have h : ((cfg0.win 0).blk t).view.emb (ix2 p l) = ix2 r l := by
      funext a; apply Fin.ext
      match a with
      | ⟨0, _⟩ => show win0_0.index t (0 : Fin 2) * 5000 + 1 * p.val = r.val; omega
      | ⟨1, _⟩ => show win0_0.index t (1 : Fin 2) * 128 + 1 * l.val = l.val; omega
    rw [h]
  · funext y
    show V c main_arg7 (((cfg0.win 1).blk t).view.emb y) = V c main_arg7 y
    have h : ((cfg0.win 1).blk t).view.emb y = y := by
      funext a; apply Fin.ext
      match a with
      | ⟨0, _⟩ => show win0_1.index t (0 : Fin 2) * 128 + 1 * (y 0).val = (y 0).val; omega
      | ⟨1, _⟩ => show win0_1.index t (1 : Fin 2) * 128 + 1 * (y 1).val = (y 1).val; omega
    rw [h]

/-- An entry lies in tile t iff its row is in row block t. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v66).slice (win0_2.rect t)).set ↔ _
  rw [View.set_slice_whole, Rect.mem_set_unit]
  exact Iff.rfl

/-- Every entry is in some tile: the one its row falls in. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the result array holds X W of the arrays the region found. -/
theorem final (c : Dev nD) :
    (dat0 V c).arrAt 2 cfg0.N = G (V c main_arg0) (V c main_arg7) :=
  (dat0 V c).arrAt_eq_of_cover 2 _ (fun t _ => flushed_eq V c t) cover

end Cert.KernelIdeal.Region0

end
-- ==== Proof.Region1.lean ====
/-
  Region 1: the bias-and-clamp step over row tiles.
  The rows of the 50000×128 aggregate are cut into ten tiles of 5000 rows; at tile t the body adds the 1×128 bias row
  to every row of the tile and clamps at zero, and writes the tile back.  Tile t of the result is therefore tile t of
  max(A + b, 0), the tiles cover every row, and the array ends holding max(A + b, 0).
-/
import proofs.«168704_j55499567399318_1_alg».proof.Proof.Gen.KernelIdeal.Frame
import proofs.«168704_j55499567399318_1_alg».proof.Proof.Layers

set_option maxRecDepth 16384

noncomputable section

open scoped BigOperators

namespace Cert.KernelIdeal.Region1

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- max(A + b, 0) over the arrays' own index types. -/
abbrev G (A : S50000x128.Idx → Elt Ideal .f32) (B : S1x128.Idx → Elt Ideal .f32) : S50000x128.Idx → Elt Ideal .f32 :=
  Cert.Layers.biasRelu (F := Ideal) A B

theorem hz : (![0, 0] : Fin 2 → Nat) = fun _ => 0 := funext fun a => by fin_cases a <;> rfl

/-- The body's value at entry (p, q) of a tile: the tile's entry plus the bias at column q, clamped at zero. -/
theorem pay_apply (x0 : FVec Ideal S5000x128 .f32) (x1 : FVec Ideal S1x128 .f32) (p : Fin 5000) (q : Fin 128) :
    k1_pay1 x0 x1 (ix2 p q)
      = FloatOps.maximumf (FloatOps.addf (x0 (ix2 p q)) (x1 (ix2 (0 : Fin 1) q))) (FloatOps.ofBits .f32 0x00000000#32) := by
  unfold k1_pay1
  show FloatOps.maximumf (FloatOps.addf (shapeCast S5000x128 x0 shapeCasts_S5000x128_S5000x128 (ix2 p q))
    (broadcastTo S5000x128 (shapeCast S1x128 x1 shapeCasts_S1x128_S1x128) broadcasts_S1x128_S5000x128 (ix2 p q))) _ = _
  rw [shapeCast_self, shapeCast_self,
    broadcastTo_apply x1 broadcasts_S1x128_S5000x128 (ix2 p q) (ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)])]
  rfl

/-- A tile entry of the body's value is the entry of max(A + b, 0) at the same column, when the tile holds the rows of A
    it sits on and the bias block is the whole bias row. -/
theorem block_eq (A : FVec Ideal S50000x128 .f32) (B : FVec Ideal S1x128 .f32)
    (x0 : FVec Ideal S5000x128 .f32) (x1 : FVec Ideal S1x128 .f32) (j : S5000x128.Idx) (i : S50000x128.Idx)
    (h0 : x0 j = A i) (h1 : x1 = B) (hcol : (i 1).val = (j 1).val) :
    k1_pay1 x0 x1 j = Cert.Layers.biasRelu (F := Ideal) A B i := by
  subst h1
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  have hs : s = q := Fin.ext hcol
  subst hs
  rw [pay_apply, Cert.Layers.biasRelu_apply, h0]

/-- The printed index maps over the ten tiles: tile t of the aggregate and of the result is row block t; the bias block
    is always the whole row. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What tile t writes back is tile t of max(A + b, 0), A and b the arrays as the region finds them. -/
theorem flushed_eq (c : Dev nD) (t : Fin cfg1.N) :
    (dat1 V c).flushed 2 t
      = ((cfg1.win 2).blk t).view.read (Elt Ideal) (G (V c main_v79) (V c main_v80)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  show k1_pay1 (iblk1 V c 0 t) (iblk1 V c 1 t) j
    = G (V c main_v79) (V c main_v80) (((cfg1.win 2).blk t).view.emb j)
  refine block_eq _ _ _ _ j _ ?_ ?_ ?_
  · show V c main_v79 (((cfg1.win 0).blk t).view.emb j) = V c main_v79 (((cfg1.win 2).blk t).view.emb j)
    have h : ((cfg1.win 0).blk t).view.emb j = ((cfg1.win 2).blk t).view.emb j := by
      funext a; apply Fin.ext
      match a with
      | ⟨0, _⟩ => show win1_0.index t (0 : Fin 2) * 5000 + 1 * (j 0).val = win1_2.index t (0 : Fin 2) * 5000 + 1 * (j 0).val; omega
      | ⟨1, _⟩ => show win1_0.index t (1 : Fin 2) * 128 + 1 * (j 1).val = win1_2.index t (1 : Fin 2) * 128 + 1 * (j 1).val; omega
    rw [h]
  · funext y
    show V c main_v80 (((cfg1.win 1).blk t).view.emb y) = V c main_v80 y
    have h : ((cfg1.win 1).blk t).view.emb y = y := by
      funext a; apply Fin.ext
      match a with
      | ⟨0, _⟩ => show win1_1.index t (0 : Fin 2) * 1 + 1 * (y 0).val = (y 0).val; omega
      | ⟨1, _⟩ => show win1_1.index t (1 : Fin 2) * 128 + 1 * (y 1).val = (y 1).val; omega
    rw [h]
  · show win1_2.index t (1 : Fin 2) * 128 + 1 * (j 1).val = (j 1).val
    omega

/-- An entry lies in tile t iff its row is in row block t. -/
theorem mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v81).slice (win1_2.rect t)).set ↔ _
  rw [View.set_slice_whole, Rect.mem_set_unit]
  exact Iff.rfl

/-- Every entry is in some tile: the one its row falls in. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region the result array holds max(A + b, 0) of the arrays the region found. -/
theorem final (c : Dev nD) :
    (dat1 V c).arrAt 2 cfg1.N = G (V c main_v79) (V c main_v80) :=
  (dat1 V c).arrAt_eq_of_cover 2 _ (fun t _ => flushed_eq V c t) cover

end Cert.KernelIdeal.Region1

end
-- ==== Proof.Region2.lean ====
/-
  Region 2: the projection X ↦ X W over row tiles.
  The 50000 rows of X are cut into ten tiles of 5000 rows and the 128×128 weight is held whole; at tile t the body
  multiplies the tile by the weight (a matrix product into a zero accumulator, the operands narrowed first, which
  changes nothing over the extended reals) and writes the product back as tile t of the result.  Entry (p, q) of that
  product is the inner product of the tile's row p with column q of W, which is entry (5000 t + p, q) of X W; the
  tiles cover every row, so the array ends holding X W.
-/
import proofs.«168704_j55499567399318_1_alg».proof.Proof.Gen.KernelIdeal.Frame
import proofs.«168704_j55499567399318_1_alg».proof.Proof.Layers

set_option maxRecDepth 16384

noncomputable section

open scoped BigOperators

namespace Cert.KernelIdeal.Region2

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- X W over the arrays' own index types. -/
abbrev G (A : S50000x128.Idx → Elt Ideal .f32) (B : S128x128.Idx → Elt Ideal .f32) : S50000x128.Idx → Elt Ideal .f32 :=
  Cert.Layers.proj128 (F := Ideal) A B

/-- The body's value at entry (p, q) of a tile: the inner product of the tile's row p with the weight's column q. -/
theorem pay_apply (x0 : FVec Ideal S5000x128 .f32) (x1 : FVec Ideal S128x128 .f32) (p : Fin 5000) (q : Fin 128) :
    k2_pay1 x0 x1 (ix2 p q) = ∑ l : Fin 128, x0 (ix2 p l) * x1 (ix2 l q) := by
  unfold k2_pay1
  refine (Cert.LibPlainDot.matmul_zero_apply (M := 5000) (K := 128) (N := 128) none
    (truncf .bf16 x0 bitsLt_bf16_f32) (truncf .bf16 x1 bitsLt_bf16_f32) p q).trans ?_
  rfl

/-- A tile entry of the body's value is the entry of X W on the row the tile's row sits on, when the tile's row p is
    row r of X and the weight block is the whole weight. -/
theorem block_eq (A : FVec Ideal S50000x128 .f32) (B : FVec Ideal S128x128 .f32)
    (x0 : FVec Ideal S5000x128 .f32) (x1 : FVec Ideal S128x128 .f32) (p : Fin 5000) (q : Fin 128) (r : Fin 50000)
    (h0 : ∀ l : Fin 128, x0 (ix2 p l) = A (ix2 r l)) (h1 : x1 = B) :
    k2_pay1 x0 x1 (ix2 p q) = Cert.Layers.proj128 (F := Ideal) A B (ix2 r q) := by
  subst h1
  rw [pay_apply, Cert.Layers.proj128_apply]
  exact Finset.sum_congr rfl fun l _ => by rw [h0 l]

/-- The printed index maps over the ten tiles: tile t of X and of the result is row block t; the weight block is
    always the whole weight. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What tile t writes back is tile t of X W, X and W the arrays as the region finds them. -/
theorem flushed_eq (c : Dev nD) (t : Fin cfg2.N) :
    (dat2 V c).flushed 2 t
      = ((cfg2.win 2).blk t).view.read (Elt Ideal) (G (V c main_arg3) (V c main_arg9)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  have hN : cfg2.N = 10 := N_2
  have ht : t.val < 10 := hN ▸ t.isLt
  funext j
  obtain ⟨p, q, rfl⟩ : ∃ (p : Fin 5000) (q : Fin 128), j = ix2 p q := ⟨j 0, j 1, eq_ix2 j⟩
  have hp : p.val < 5000 := p.isLt
  obtain ⟨r, hr⟩ : ∃ r : Fin 50000, r.val = t.val * 5000 + p.val := ⟨⟨t.val * 5000 + p.val, by omega⟩, rfl⟩
  have hemb : ((cfg2.win 2).blk t).view.emb (ix2 p q) = ix2 r q := by
    funext a; apply Fin.ext
    match a with
    | ⟨0, _⟩ => show win2_2.index t (0 : Fin 2) * 5000 + 1 * p.val = r.val; omega
    | ⟨1, _⟩ => show win2_2.index t (1 : Fin 2) * 128 + 1 * q.val = q.val; omega
  show k2_pay1 (iblk2 V c 0 t) (iblk2 V c 1 t) (ix2 p q)
    = Cert.Layers.proj128 (F := Ideal) (V c main_arg3) (V c main_arg9) (((cfg2.win 2).blk t).view.emb (ix2 p q))
  rw [hemb]
  refine block_eq _ _ _ _ p q r ?_ ?_
  · intro l
    show V c main_arg3 (((cfg2.win 0).blk t).view.emb (ix2 p l)) = V c main_arg3 (ix2 r l)
    have h : ((cfg2.win 0).blk t).view.emb (ix2 p l) = ix2 r l := by
      funext a; apply Fin.ext
      match a with
      | ⟨0, _⟩ => show win2_0.index t (0 : Fin 2) * 5000 + 1 * p.val = r.val; omega
      | ⟨1, _⟩ => show win2_0.index t (1 : Fin 2) * 128 + 1 * l.val = l.val; omega
    rw [h]
  · funext y
    show V c main_arg9 (((cfg2.win 1).blk t).view.emb y) = V c main_arg9 y
    have h : ((cfg2.win 1).blk t).view.emb y = y := by
      funext a; apply Fin.ext
      match a with
      | ⟨0, _⟩ => show win2_1.index t (0 : Fin 2) * 128 + 1 * (y 0).val = (y 0).val; omega
      | ⟨1, _⟩ => show win2_1.index t (1 : Fin 2) * 128 + 1 * (y 1).val = (y 1).val; omega
    rw [h]

/-- An entry lies in tile t iff its row is in row block t. -/
theorem mem_blk (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v82).slice (win2_2.rect t)).set ↔ _
  rw [View.set_slice_whole, Rect.mem_set_unit]
  exact Iff.rfl

/-- Every entry is in some tile: the one its row falls in. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region the result array holds X W of the arrays the region found. -/
theorem final (c : Dev nD) :
    (dat2 V c).arrAt 2 cfg2.N = G (V c main_arg3) (V c main_arg9) :=
  (dat2 V c).arrAt_eq_of_cover 2 _ (fun t _ => flushed_eq V c t) cover

end Cert.KernelIdeal.Region2

end
-- ==== Proof.Region3.lean ====
/-
  Region 3: the bias-and-clamp step over row tiles.
  The rows of the 50000×128 aggregate are cut into ten tiles of 5000 rows; at tile t the body adds the 1×128 bias row
  to every row of the tile and clamps at zero, and writes the tile back.  Tile t of the result is therefore tile t of
  max(A + b, 0), the tiles cover every row, and the array ends holding max(A + b, 0).
-/
import proofs.«168704_j55499567399318_1_alg».proof.Proof.Gen.KernelIdeal.Frame
import proofs.«168704_j55499567399318_1_alg».proof.Proof.Layers

set_option maxRecDepth 16384

noncomputable section

open scoped BigOperators

namespace Cert.KernelIdeal.Region3

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- max(A + b, 0) over the arrays' own index types. -/
abbrev G (A : S50000x128.Idx → Elt Ideal .f32) (B : S1x128.Idx → Elt Ideal .f32) : S50000x128.Idx → Elt Ideal .f32 :=
  Cert.Layers.biasRelu (F := Ideal) A B

theorem hz : (![0, 0] : Fin 2 → Nat) = fun _ => 0 := funext fun a => by fin_cases a <;> rfl

/-- The body's value at entry (p, q) of a tile: the tile's entry plus the bias at column q, clamped at zero. -/
theorem pay_apply (x0 : FVec Ideal S5000x128 .f32) (x1 : FVec Ideal S1x128 .f32) (p : Fin 5000) (q : Fin 128) :
    k3_pay1 x0 x1 (ix2 p q)
      = FloatOps.maximumf (FloatOps.addf (x0 (ix2 p q)) (x1 (ix2 (0 : Fin 1) q))) (FloatOps.ofBits .f32 0x00000000#32) := by
  unfold k3_pay1
  show FloatOps.maximumf (FloatOps.addf (shapeCast S5000x128 x0 shapeCasts_S5000x128_S5000x128 (ix2 p q))
    (broadcastTo S5000x128 (shapeCast S1x128 x1 shapeCasts_S1x128_S1x128) broadcasts_S1x128_S5000x128 (ix2 p q))) _ = _
  rw [shapeCast_self, shapeCast_self,
    broadcastTo_apply x1 broadcasts_S1x128_S5000x128 (ix2 p q) (ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)])]
  rfl

/-- A tile entry of the body's value is the entry of max(A + b, 0) at the same column, when the tile holds the rows of A
    it sits on and the bias block is the whole bias row. -/
theorem block_eq (A : FVec Ideal S50000x128 .f32) (B : FVec Ideal S1x128 .f32)
    (x0 : FVec Ideal S5000x128 .f32) (x1 : FVec Ideal S1x128 .f32) (j : S5000x128.Idx) (i : S50000x128.Idx)
    (h0 : x0 j = A i) (h1 : x1 = B) (hcol : (i 1).val = (j 1).val) :
    k3_pay1 x0 x1 j = Cert.Layers.biasRelu (F := Ideal) A B i := by
  subst h1
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  have hs : s = q := Fin.ext hcol
  subst hs
  rw [pay_apply, Cert.Layers.biasRelu_apply, h0]

/-- The printed index maps over the ten tiles: tile t of the aggregate and of the result is row block t; the bias block
    is always the whole row. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What tile t writes back is tile t of max(A + b, 0), A and b the arrays as the region finds them. -/
theorem flushed_eq (c : Dev nD) (t : Fin cfg3.N) :
    (dat3 V c).flushed 2 t
      = ((cfg3.win 2).blk t).view.read (Elt Ideal) (G (V c main_v95) (V c main_v96)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts t
  funext j
  show k3_pay1 (iblk3 V c 0 t) (iblk3 V c 1 t) j
    = G (V c main_v95) (V c main_v96) (((cfg3.win 2).blk t).view.emb j)
  refine block_eq _ _ _ _ j _ ?_ ?_ ?_
  · show V c main_v95 (((cfg3.win 0).blk t).view.emb j) = V c main_v95 (((cfg3.win 2).blk t).view.emb j)
    have h : ((cfg3.win 0).blk t).view.emb j = ((cfg3.win 2).blk t).view.emb j := by
      funext a; apply Fin.ext
      match a with
      | ⟨0, _⟩ => show win3_0.index t (0 : Fin 2) * 5000 + 1 * (j 0).val = win3_2.index t (0 : Fin 2) * 5000 + 1 * (j 0).val; omega
      | ⟨1, _⟩ => show win3_0.index t (1 : Fin 2) * 128 + 1 * (j 1).val = win3_2.index t (1 : Fin 2) * 128 + 1 * (j 1).val; omega
    rw [h]
  · funext y
    show V c main_v96 (((cfg3.win 1).blk t).view.emb y) = V c main_v96 y
    have h : ((cfg3.win 1).blk t).view.emb y = y := by
      funext a; apply Fin.ext
      match a with
      | ⟨0, _⟩ => show win3_1.index t (0 : Fin 2) * 1 + 1 * (y 0).val = (y 0).val; omega
      | ⟨1, _⟩ => show win3_1.index t (1 : Fin 2) * 128 + 1 * (y 1).val = (y 1).val; omega
    rw [h]
  · show win3_2.index t (1 : Fin 2) * 128 + 1 * (j 1).val = (j 1).val
    omega

/-- An entry lies in tile t iff its row is in row block t. -/
theorem mem_blk (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v97).slice (win3_2.rect t)).set ↔ _
  rw [View.set_slice_whole, Rect.mem_set_unit]
  exact Iff.rfl

/-- Every entry is in some tile: the one its row falls in. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨e0, e1, e2, e3, e4, e5⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the region the result array holds max(A + b, 0) of the arrays the region found. -/
theorem final (c : Dev nD) :
    (dat3 V c).arrAt 2 cfg3.N = G (V c main_v95) (V c main_v96) :=
  (dat3 V c).arrAt_eq_of_cover 2 _ (fun t _ => flushed_eq V c t) cover

end Cert.KernelIdeal.Region3

end
-- ==== Proof.Region4.lean ====
/-
  Region 4: the projection of a sum, (H, H') ↦ (H + H') W, over row tiles.
  The 50000 rows of H and of H' are cut into ten tiles of 5000 rows and the 128×64 weight is held whole; at tile t the
  body adds the two tiles, multiplies the sum by the weight (a matrix product into a zero accumulator, the operands
  narrowed first, which changes nothing over the extended reals) and writes the product back as tile t of the result.
  Entry (p, q) of that product is the inner product of row p of the summed tile with column q of W, which is entry
  (5000 t + p, q) of (H + H') W; the tiles cover every row, so the array ends holding (H + H') W.
-/
import proofs.«168704_j55499567399318_1_alg».proof.Proof.Gen.KernelIdeal.Frame
import proofs.«168704_j55499567399318_1_alg».proof.Proof.Layers

set_option maxRecDepth 16384

noncomputable section

open scoped BigOperators

namespace Cert.KernelIdeal.Region4

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- (H + H') W over the arrays' own index types. -/
abbrev G (A A' : S50000x128.Idx → Elt Ideal .f32) (B : S128x64.Idx → Elt Ideal .f32) : S50000x64.Idx → Elt Ideal .f32 :=
  Cert.Layers.proj64 (F := Ideal) A A' B

/-- The body's value at entry (p, q) of a tile: the inner product of row p of the two tiles' sum with the weight's
    column q. -/
theorem pay_apply (x0 x1 : FVec Ideal S5000x128 .f32) (x2 : FVec Ideal S128x64 .f32) (p : Fin 5000) (q : Fin 64) :
    k4_pay1 x0 x1 x2 (ix2 p q) = ∑ l : Fin 128, (x0 (ix2 p l) + x1 (ix2 p l)) * x2 (ix2 l q) := by
  unfold k4_pay1
  refine (Cert.LibPlainDot.matmul_zero_apply (M := 5000) (K := 128) (N := 64) none
    (truncf .bf16 (addf (shapeCast S5000x128 x0 shapeCasts_S5000x128_S5000x128) (shapeCast S5000x128 x1 shapeCasts_S5000x128_S5000x128)) bitsLt_bf16_f32)
    (truncf .bf16 x2 bitsLt_bf16_f32) p q).trans ?_
  rw [shapeCast_self, shapeCast_self]
  rfl

/-- A tile entry of the body's value is the entry of (H + H') W on the row the tile's row sits on, when the tiles' row p
    is row r of H and of H' and the weight block is the whole weight. -/
theorem block_eq (A A' : FVec Ideal S50000x128 .f32) (B : FVec Ideal S128x64 .f32)
    (x0 x1 : FVec Ideal S5000x128 .f32) (x2 : FVec Ideal S128x64 .f32) (p : Fin 5000) (q : Fin 64) (r : Fin 50000)
    (h0 : ∀ l : Fin 128, x0 (ix2 p l) = A (ix2 r l)) (h1 : ∀ l : Fin 128, x1 (ix2 p l) = A' (ix2 r l)) (h2 : x2 = B) :
    k4_pay1 x0 x1 x2 (ix2 p q) = Cert.Layers.proj64 (F := Ideal) A A' B (ix2 r q) := by
  subst h2
  rw [pay_apply, Cert.Layers.proj64_apply]
  exact Finset.sum_congr rfl fun l _ => by rw [h0 l, h1 l]

/-- The printed index maps over the ten tiles: tile t of H, of H' and of the result is row block t; the weight block is
    always the whole weight. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What tile t writes back is tile t of (H + H') W, H, H' and W the arrays as the region finds them. -/
theorem flushed_eq (c : Dev nD) (t : Fin cfg4.N) :
    (dat4 V c).flushed 3 t
      = ((cfg4.win 3).blk t).view.read (Elt Ideal) (G (V c main_v81) (V c main_v135) (V c main_arg11)) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x64) hz]
  obtain ⟨e0, e1, e2, e3, e4, e5, e6, e7⟩ := idx_facts t
  have hN : cfg4.N = 10 := N_4
  have ht : t.val < 10 := hN ▸ t.isLt
  funext j
  obtain ⟨p, q, rfl⟩ : ∃ (p : Fin 5000) (q : Fin 64), j = ix2 p q := ⟨j 0, j 1, eq_ix2 j⟩
  have hp : p.val < 5000 := p.isLt
  obtain ⟨r, hr⟩ : ∃ r : Fin 50000, r.val = t.val * 5000 + p.val := ⟨⟨t.val * 5000 + p.val, by omega⟩, rfl⟩
  have hemb : ((cfg4.win 3).blk t).view.emb (ix2 p q) = ix2 r q := by
    funext a; apply Fin.ext
    match a with
    | ⟨0, _⟩ => show win4_3.index t (0 : Fin 2) * 5000 + 1 * p.val = r.val; omega
    | ⟨1, _⟩ => show win4_3.index t (1 : Fin 2) * 64 + 1 * q.val = q.val; omega
  show k4_pay1 (iblk4 V c 0 t) (iblk4 V c 1 t) (iblk4 V c 2 t) (ix2 p q)
    = Cert.Layers.proj64 (F := Ideal) (V c main_v81) (V c main_v135) (V c main_arg11) (((cfg4.win 3).blk t).view.emb (ix2 p q))
  rw [hemb]
  refine block_eq _ _ _ _ _ _ p q r ?_ ?_ ?_
  · intro l
    show V c main_v81 (((cfg4.win 0).blk t).view.emb (ix2 p l)) = V c main_v81 (ix2 r l)
    have h : ((cfg4.win 0).blk t).view.emb (ix2 p l) = ix2 r l := by
      funext a; apply Fin.ext
      match a with
      | ⟨0, _⟩ => show win4_0.index t (0 : Fin 2) * 5000 + 1 * p.val = r.val; omega
      | ⟨1, _⟩ => show win4_0.index t (1 : Fin 2) * 128 + 1 * l.val = l.val; omega
    rw [h]
  · intro l
    show V c main_v135 (((cfg4.win 1).blk t).view.emb (ix2 p l)) = V c main_v135 (ix2 r l)
    have h : ((cfg4.win 1).blk t).view.emb (ix2 p l) = ix2 r l := by
      funext a; apply Fin.ext
      match a with
      | ⟨0, _⟩ => show win4_1.index t (0 : Fin 2) * 5000 + 1 * p.val = r.val; omega
      | ⟨1, _⟩ => show win4_1.index t (1 : Fin 2) * 128 + 1 * l.val = l.val; omega
    rw [h]
  · funext y
    show V c main_arg11 (((cfg4.win 2).blk t).view.emb y) = V c main_arg11 y
    have h : ((cfg4.win 2).blk t).view.emb y = y := by
      funext a; apply Fin.ext
      match a with
      | ⟨0, _⟩ => show win4_2.index t (0 : Fin 2) * 128 + 1 * (y 0).val = (y 0).val; omega
      | ⟨1, _⟩ => show win4_2.index t (1 : Fin 2) * 64 + 1 * (y 1).val = (y 1).val; omega
    rw [h]

/-- An entry lies in tile t iff its row is in row block t. -/
theorem mem_blk (t : Fin cfg4.N) (i : S50000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v136).slice (win4_3.rect t)).set ↔ _
  rw [View.set_slice_whole, Rect.mem_set_unit]
  exact Iff.rfl

/-- Every entry is in some tile: the one its row falls in. -/
theorem cover (i : S50000x64.Idx) :
    ∃ t : Fin cfg4.N, (cfg4.win 3).flush t = true ∧ i ∈ ((cfg4.win 3).blk t).view.set := by
  have hi0 : (i 0).val < 50000 := (i 0).isLt
  have hi1 : (i 1).val < 64 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨e0, e1, e2, e3, e4, e5, e6, e7⟩ := idx_facts t
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- After the region the result array holds (H + H') W of the arrays the region found. -/
theorem final (c : Dev nD) :
    (dat4 V c).arrAt 3 cfg4.N = G (V c main_v81) (V c main_v135) (V c main_arg11) :=
  (dat4 V c).arrAt_eq_of_cover 3 _ (fun t _ => flushed_eq V c t) cover

end Cert.KernelIdeal.Region4

end
-- ==== Proof.Region5.lean ====
/-
  Region 5: the bias step over row tiles.
  The rows of the 50000×64 aggregate are cut into ten tiles of 5000 rows; at tile t the body adds the 1×64 bias row
  to every row of the tile and writes the tile back.  Tile t of the result is therefore tile t of A + b, the tiles
  cover every row, and the array ends holding A + b.
-/
import proofs.«168704_j55499567399318_1_alg».proof.Proof.Gen.KernelIdeal.Frame
import proofs.«168704_j55499567399318_1_alg».proof.Proof.Layers

set_option maxRecDepth 16384

noncomputable section

open scoped BigOperators

namespace Cert.KernelIdeal.Region5

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- A + b over the arrays' own index types. -/
abbrev G (A : S50000x64.Idx → Elt Ideal .f32) (B : S1x64.Idx → Elt Ideal .f32) : S50000x64.Idx → Elt Ideal .f32 :=
  Cert.Layers.bias64 (F := Ideal) A B

theorem hz : (![0, 0] : Fin 2 → Nat) = fun _ => 0 := funext fun a => by fin_cases a <;> rfl

/-- The body's value at entry (p, q) of a tile: the tile's entry plus the bias at column q. -/
theorem pay_apply (x0 : FVec Ideal S5000x64 .f32) (x1 : FVec Ideal S1x64 .f32) (p : Fin 5000) (q : Fin 64) :
    k5_pay1 x0 x1 (ix2 p q)
      = FloatOps.addf (x0 (ix2 p q)) (x1 (ix2 (0 : Fin 1) q)) := by
  unfold k5_pay1
  show FloatOps.addf (shapeCast S5000x64 x0 shapeCasts_S5000x64_S5000x64 (ix2 p q))
    (broadcastTo S5000x64 (shapeCast S1x64 x1 shapeCasts_S1x64_S1x64) broadcasts_S1x64_S5000x64 (ix2 p q)) = _
  rw [shapeCast_self, shapeCast_self,
    broadcastTo_apply x1 broadcasts_S1x64_S5000x64 (ix2 p q) (ix2 (0 : Fin 1) q) (fun a => match a with
      | ⟨0, _⟩ => by show 0 = if (1 : Nat) = 1 then 0 else p.val; rw [if_pos rfl]
      | ⟨1, _⟩ => by show q.val = if (64 : Nat) = 1 then 0 else q.val; rw [if_neg (by decide)])]

/-- A tile entry of the body's value is the entry of A + b at the same column, when the tile holds the rows of A
    it sits on and the bias block is the whole bias row. -/
theorem block_eq (A : FVec Ideal S50000x64 .f32) (B : FVec Ideal S1x64 .f32)
    (x0 : FVec Ideal S5000x64 .f32) (x1 : FVec Ideal S1x64 .f32) (j : S5000x64.Idx) (i : S50000x64.Idx)
    (h0 : x0 j = A i) (h1 : x1 = B) (hcol : (i 1).val = (j 1).val) :
    k5_pay1 x0 x1 j = Cert.Layers.bias64 (F := Ideal) A B i := by
  subst h1
  obtain ⟨p, q, rfl⟩ : ∃ (p : Fin 5000) (q : Fin 64), j = ix2 p q := ⟨j 0, j 1, eq_ix2 j⟩
  obtain ⟨r, s, rfl⟩ : ∃ (r : Fin 50000) (s : Fin 64), i = ix2 r s := ⟨i 0, i 1, eq_ix2 i⟩
  have hs : s = q := Fin.ext hcol
  subst hs
  rw [pay_apply, Cert.Layers.bias64_apply, h0]

/-- The printed index maps over the ten tiles: tile t of the aggregate and of the result is row block t; the bias block
    is always the whole row. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What tile t writes back is tile t of A + b, A and b the arrays as the region finds them. -/
theorem flushed_eq (c : Dev nD) (t : Fin cfg5.N) :
    (dat5 V c).flushed 2 t
      = ((cfg5.win 2).blk t).view.read (Elt Ideal) (G (V c main_v149) (V c main_v150)) := by
  show (cfg5.win 2).cut (grid5.coords t) ((dat5 V c).after 2 t) = _
  rw [after5_2]
  unfold out5_2
  rw [View.canon_unit_zero hz]
  simp only [View.ld_unit_zero (S := S5000x64) hz, View.ld_unit_zero (S := S1x64) hz]
  obtain ⟨e0, e1, e2, e3, e4, e5⟩ := idx_facts t
  funext j
  show k5_pay1 (iblk5 V c 0 t) (iblk5 V c 1 t) j
    = G (V c main_v149) (V c main_v150) (((cfg5.win 2).blk t).view.emb j)
  refine block_eq _ _ _ _ j _ ?_ ?_ ?_
  · show V c main_v149 (((cfg5.win 0).blk t).view.emb j) = V c main_v149 (((cfg5.win 2).blk t).view.emb j)
    have h : ((cfg5.win 0).blk t).view.emb j = ((cfg5.win 2).blk t).view.emb j := by
      funext a; apply Fin.ext
      match a with
      | ⟨0, _⟩ => show win5_0.index t (0 : Fin 2) * 5000 + 1 * (j 0).val = win5_2.index t (0 : Fin 2) * 5000 + 1 * (j 0).val; omega
      | ⟨1, _⟩ => show win5_0.index t (1 : Fin 2) * 64 + 1 * (j 1).val = win5_2.index t (1 : Fin 2) * 64 + 1 * (j 1).val; omega
    rw [h]
  · funext y
    show V c main_v150 (((cfg5.win 1).blk t).view.emb y) = V c main_v150 y
    have h : ((cfg5.win 1).blk t).view.emb y = y := by
      funext a; apply Fin.ext
      match a with
      | ⟨0, _⟩ => show win5_1.index t (0 : Fin 2) * 1 + 1 * (y 0).val = (y 0).val; omega
      | ⟨1, _⟩ => show win5_1.index t (1 : Fin 2) * 64 + 1 * (y 1).val = (y 1).val; omega
    rw [h]
  · show win5_2.index t (1 : Fin 2) * 64 + 1 * (j 1).val = (j 1).val
    omega

/-- An entry lies in tile t iff its row is in row block t. -/
theorem mem_blk (t : Fin cfg5.N) (i : S50000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v151).slice (win5_2.rect t)).set ↔ _
  rw [View.set_slice_whole, Rect.mem_set_unit]
  exact Iff.rfl

/-- Every entry is in some tile: the one its row falls in. -/
theorem cover (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨e0, e1, e2, e3, e4, e5⟩ := idx_facts t
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- After the region the result array holds A + b of the arrays the region found. -/
theorem final (c : Dev nD) :
    (dat5 V c).arrAt 2 cfg5.N = G (V c main_v149) (V c main_v150) :=
  (dat5 V c).arrAt_eq_of_cover 2 _ (fun t _ => flushed_eq V c t) cover

end Cert.KernelIdeal.Region5

end
-- ==== Proof.Region6.lean ====
/-
  Region 6: the projection of a sum, (H, H') ↦ (H + H') W, over row tiles.
  The 50000 rows of H and of H' are cut into ten tiles of 5000 rows and the 128×64 weight is held whole; at tile t the
  body adds the two tiles, multiplies the sum by the weight (a matrix product into a zero accumulator, the operands
  narrowed first, which changes nothing over the extended reals) and writes the product back as tile t of the result.
  Entry (p, q) of that product is the inner product of row p of the summed tile with column q of W, which is entry
  (5000 t + p, q) of (H + H') W; the tiles cover every row, so the array ends holding (H + H') W.
-/
import proofs.«168704_j55499567399318_1_alg».proof.Proof.Gen.KernelIdeal.Frame
import proofs.«168704_j55499567399318_1_alg».proof.Proof.Layers

set_option maxRecDepth 16384

noncomputable section

open scoped BigOperators

namespace Cert.KernelIdeal.Region6

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- (H + H') W over the arrays' own index types. -/
abbrev G (A A' : S50000x128.Idx → Elt Ideal .f32) (B : S128x64.Idx → Elt Ideal .f32) : S50000x64.Idx → Elt Ideal .f32 :=
  Cert.Layers.proj64 (F := Ideal) A A' B

/-- The body's value at entry (p, q) of a tile: the inner product of row p of the two tiles' sum with the weight's
    column q. -/
theorem pay_apply (x0 x1 : FVec Ideal S5000x128 .f32) (x2 : FVec Ideal S128x64 .f32) (p : Fin 5000) (q : Fin 64) :
    k6_pay1 x0 x1 x2 (ix2 p q) = ∑ l : Fin 128, (x0 (ix2 p l) + x1 (ix2 p l)) * x2 (ix2 l q) := by
  unfold k6_pay1
  refine (Cert.LibPlainDot.matmul_zero_apply (M := 5000) (K := 128) (N := 64) none
    (truncf .bf16 (addf (shapeCast S5000x128 x0 shapeCasts_S5000x128_S5000x128) (shapeCast S5000x128 x1 shapeCasts_S5000x128_S5000x128)) bitsLt_bf16_f32)
    (truncf .bf16 x2 bitsLt_bf16_f32) p q).trans ?_
  rw [shapeCast_self, shapeCast_self]
  rfl

/-- A tile entry of the body's value is the entry of (H + H') W on the row the tile's row sits on, when the tiles' row p
    is row r of H and of H' and the weight block is the whole weight. -/
theorem block_eq (A A' : FVec Ideal S50000x128 .f32) (B : FVec Ideal S128x64 .f32)
    (x0 x1 : FVec Ideal S5000x128 .f32) (x2 : FVec Ideal S128x64 .f32) (p : Fin 5000) (q : Fin 64) (r : Fin 50000)
    (h0 : ∀ l : Fin 128, x0 (ix2 p l) = A (ix2 r l)) (h1 : ∀ l : Fin 128, x1 (ix2 p l) = A' (ix2 r l)) (h2 : x2 = B) :
    k6_pay1 x0 x1 x2 (ix2 p q) = Cert.Layers.proj64 (F := Ideal) A A' B (ix2 r q) := by
  subst h2
  rw [pay_apply, Cert.Layers.proj64_apply]
  exact Finset.sum_congr rfl fun l _ => by rw [h0 l, h1 l]

/-- The printed index maps over the ten tiles: tile t of H, of H' and of the result is row block t; the weight block is
    always the whole weight. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What tile t writes back is tile t of (H + H') W, H, H' and W the arrays as the region finds them. -/
theorem flushed_eq (c : Dev nD) (t : Fin cfg6.N) :
    (dat6 V c).flushed 3 t
      = ((cfg6.win 3).blk t).view.read (Elt Ideal) (G (V c main_v97) (V c main_v116) (V c main_arg11)) := by
  show (cfg6.win 3).cut (grid6.coords t) ((dat6 V c).after 3 t) = _
  rw [after6_3]
  unfold out6_3
  rw [View.canon_unit_zero hz]
  simp only [View.ld_unit_zero (S := S5000x128) hz, View.ld_unit_zero (S := S128x64) hz]
  obtain ⟨e0, e1, e2, e3, e4, e5, e6, e7⟩ := idx_facts t
  have hN : cfg6.N = 10 := N_6
  have ht : t.val < 10 := hN ▸ t.isLt
  funext j
  obtain ⟨p, q, rfl⟩ : ∃ (p : Fin 5000) (q : Fin 64), j = ix2 p q := ⟨j 0, j 1, eq_ix2 j⟩
  have hp : p.val < 5000 := p.isLt
  obtain ⟨r, hr⟩ : ∃ r : Fin 50000, r.val = t.val * 5000 + p.val := ⟨⟨t.val * 5000 + p.val, by omega⟩, rfl⟩
  have hemb : ((cfg6.win 3).blk t).view.emb (ix2 p q) = ix2 r q := by
    funext a; apply Fin.ext
    match a with
    | ⟨0, _⟩ => show win6_3.index t (0 : Fin 2) * 5000 + 1 * p.val = r.val; omega
    | ⟨1, _⟩ => show win6_3.index t (1 : Fin 2) * 64 + 1 * q.val = q.val; omega
  show k6_pay1 (iblk6 V c 0 t) (iblk6 V c 1 t) (iblk6 V c 2 t) (ix2 p q)
    = Cert.Layers.proj64 (F := Ideal) (V c main_v97) (V c main_v116) (V c main_arg11) (((cfg6.win 3).blk t).view.emb (ix2 p q))
  rw [hemb]
  refine block_eq _ _ _ _ _ _ p q r ?_ ?_ ?_
  · intro l
    show V c main_v97 (((cfg6.win 0).blk t).view.emb (ix2 p l)) = V c main_v97 (ix2 r l)
    have h : ((cfg6.win 0).blk t).view.emb (ix2 p l) = ix2 r l := by
      funext a; apply Fin.ext
      match a with
      | ⟨0, _⟩ => show win6_0.index t (0 : Fin 2) * 5000 + 1 * p.val = r.val; omega
      | ⟨1, _⟩ => show win6_0.index t (1 : Fin 2) * 128 + 1 * l.val = l.val; omega
    rw [h]
  · intro l
    show V c main_v116 (((cfg6.win 1).blk t).view.emb (ix2 p l)) = V c main_v116 (ix2 r l)
    have h : ((cfg6.win 1).blk t).view.emb (ix2 p l) = ix2 r l := by
      funext a; apply Fin.ext
      match a with
      | ⟨0, _⟩ => show win6_1.index t (0 : Fin 2) * 5000 + 1 * p.val = r.val; omega
      | ⟨1, _⟩ => show win6_1.index t (1 : Fin 2) * 128 + 1 * l.val = l.val; omega
    rw [h]
  · funext y
    show V c main_arg11 (((cfg6.win 2).blk t).view.emb y) = V c main_arg11 y
    have h : ((cfg6.win 2).blk t).view.emb y = y := by
      funext a; apply Fin.ext
      match a with
      | ⟨0, _⟩ => show win6_2.index t (0 : Fin 2) * 128 + 1 * (y 0).val = (y 0).val; omega
      | ⟨1, _⟩ => show win6_2.index t (1 : Fin 2) * 64 + 1 * (y 1).val = (y 1).val; omega
    rw [h]

/-- An entry lies in tile t iff its row is in row block t. -/
theorem mem_blk (t : Fin cfg6.N) (i : S50000x64.Idx) :
    i ∈ ((cfg6.win 3).blk t).view.set ↔ ∀ a : Fin 2, win6_3.index t a * S5000x64.size a ≤ (i a).val
      ∧ (i a).val < win6_3.index t a * S5000x64.size a + S5000x64.size a := by
  show i ∈ ((View.whole main_v152).slice (win6_3.rect t)).set ↔ _
  rw [View.set_slice_whole, Rect.mem_set_unit]
  exact Iff.rfl

/-- Every entry is in some tile: the one its row falls in. -/
theorem cover (i : S50000x64.Idx) :
    ∃ t : Fin cfg6.N, (cfg6.win 3).flush t = true ∧ i ∈ ((cfg6.win 3).blk t).view.set := by
  have hi0 : (i 0).val < 50000 := (i 0).isLt
  have hi1 : (i 1).val < 64 := (i 1).isLt
  have hN : cfg6.N = 10 := N_6
  obtain ⟨t, ht⟩ : ∃ t : Fin cfg6.N, t.val = (i 0).val / 5000 := ⟨⟨(i 0).val / 5000, by rw [hN]; omega⟩, rfl⟩
  obtain ⟨e0, e1, e2, e3, e4, e5, e6, e7⟩ := idx_facts t
  refine ⟨t, flush6_3 t, ?_⟩
  rw [mem_blk]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 64 ≤ (i 1).val ∧ (i 1).val < win6_3.index t (1 : Fin 2) * 64 + 64; omega

/-- After the region the result array holds (H + H') W of the arrays the region found. -/
theorem final (c : Dev nD) :
    (dat6 V c).arrAt 3 cfg6.N = G (V c main_v97) (V c main_v116) (V c main_arg11) :=
  (dat6 V c).arrAt_eq_of_cover 3 _ (fun t _ => flushed_eq V c t) cover

end Cert.KernelIdeal.Region6

end
-- ==== Proof.Region7.lean ====
/-
  Region 7: the bias step over row tiles.
  The rows of the 50000×64 aggregate are cut into ten tiles of 5000 rows; at tile t the body adds the 1×64 bias row
  to every row of the tile and writes the tile back.  Tile t of the result is therefore tile t of A + b, the tiles
  cover every row, and the array ends holding A + b.
-/
import proofs.«168704_j55499567399318_1_alg».proof.Proof.Gen.KernelIdeal.Frame
import proofs.«168704_j55499567399318_1_alg».proof.Proof.Layers

set_option maxRecDepth 16384

noncomputable section

open scoped BigOperators

namespace Cert.KernelIdeal.Region7

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- A + b over the arrays' own index types. -/
abbrev G (A : S50000x64.Idx → Elt Ideal .f32) (B : S1x64.Idx → Elt Ideal .f32) : S50000x64.Idx → Elt Ideal .f32 :=
  Cert.Layers.bias64 (F := Ideal) A B

theorem hz : (![0, 0] : Fin 2 → Nat) = fun _ => 0 := funext fun a => by fin_cases a <;> rfl

/-- The body's value at entry (p, q) of a tile: the tile's entry plus the bias at column q. -/
theorem pay_apply (x0 : FVec Ideal S5000x64 .f32) (x1 : FVec Ideal S1x64 .f32) (p : Fin 5000) (q : Fin 64) :
    k7_pay1 x0 x1 (ix2 p q)
      = FloatOps.addf (x0 (ix2 p q)) (x1 (ix2 (0 : Fin 1) q)) := by
  unfold k7_pay1
  show FloatOps.addf (shapeCast S5000x64 x0 shapeCasts_S5000x64_S5000x64 (ix2 p q))
    (broadcastTo S5000x64 (shapeCast S1x64 x1 shapeCasts_S1x64_S1x64) broadcasts_S1x64_S5000x64 (ix2 p q)) = _
  rw [shapeCast_self, shapeCast_self,
    broadcastTo_apply x1 broadcasts_S1x64_S5000x64 (ix2 p q) (ix2 (0 : Fin 1) q) (fun a => match a with
      | ⟨0, _⟩ => by show 0 = if (1 : Nat) = 1 then 0 else p.val; rw [if_pos rfl]
      | ⟨1, _⟩ => by show q.val = if (64 : Nat) = 1 then 0 else q.val; rw [if_neg (by decide)])]

/-- A tile entry of the body's value is the entry of A + b at the same column, when the tile holds the rows of A
    it sits on and the bias block is the whole bias row. -/
theorem block_eq (A : FVec Ideal S50000x64 .f32) (B : FVec Ideal S1x64 .f32)
    (x0 : FVec Ideal S5000x64 .f32) (x1 : FVec Ideal S1x64 .f32) (j : S5000x64.Idx) (i : S50000x64.Idx)
    (h0 : x0 j = A i) (h1 : x1 = B) (hcol : (i 1).val = (j 1).val) :
    k7_pay1 x0 x1 j = Cert.Layers.bias64 (F := Ideal) A B i := by
  subst h1
  obtain ⟨p, q, rfl⟩ : ∃ (p : Fin 5000) (q : Fin 64), j = ix2 p q := ⟨j 0, j 1, eq_ix2 j⟩
  obtain ⟨r, s, rfl⟩ : ∃ (r : Fin 50000) (s : Fin 64), i = ix2 r s := ⟨i 0, i 1, eq_ix2 i⟩
  have hs : s = q := Fin.ext hcol
  subst hs
  rw [pay_apply, Cert.Layers.bias64_apply, h0]

/-- The printed index maps over the ten tiles: tile t of the aggregate and of the result is row block t; the bias block
    is always the whole row. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What tile t writes back is tile t of A + b, A and b the arrays as the region finds them. -/
theorem flushed_eq (c : Dev nD) (t : Fin cfg7.N) :
    (dat7 V c).flushed 2 t
      = ((cfg7.win 2).blk t).view.read (Elt Ideal) (G (V c main_v165) (V c main_v166)) := by
  show (cfg7.win 2).cut (grid7.coords t) ((dat7 V c).after 2 t) = _
  rw [after7_2]
  unfold out7_2
  rw [View.canon_unit_zero hz]
  simp only [View.ld_unit_zero (S := S5000x64) hz, View.ld_unit_zero (S := S1x64) hz]
  obtain ⟨e0, e1, e2, e3, e4, e5⟩ := idx_facts t
  funext j
  show k7_pay1 (iblk7 V c 0 t) (iblk7 V c 1 t) j
    = G (V c main_v165) (V c main_v166) (((cfg7.win 2).blk t).view.emb j)
  refine block_eq _ _ _ _ j _ ?_ ?_ ?_
  · show V c main_v165 (((cfg7.win 0).blk t).view.emb j) = V c main_v165 (((cfg7.win 2).blk t).view.emb j)
    have h : ((cfg7.win 0).blk t).view.emb j = ((cfg7.win 2).blk t).view.emb j := by
      funext a; apply Fin.ext
      match a with
      | ⟨0, _⟩ => show win7_0.index t (0 : Fin 2) * 5000 + 1 * (j 0).val = win7_2.index t (0 : Fin 2) * 5000 + 1 * (j 0).val; omega
      | ⟨1, _⟩ => show win7_0.index t (1 : Fin 2) * 64 + 1 * (j 1).val = win7_2.index t (1 : Fin 2) * 64 + 1 * (j 1).val; omega
    rw [h]
  · funext y
    show V c main_v166 (((cfg7.win 1).blk t).view.emb y) = V c main_v166 y
    have h : ((cfg7.win 1).blk t).view.emb y = y := by
      funext a; apply Fin.ext
      match a with
      | ⟨0, _⟩ => show win7_1.index t (0 : Fin 2) * 1 + 1 * (y 0).val = (y 0).val; omega
      | ⟨1, _⟩ => show win7_1.index t (1 : Fin 2) * 64 + 1 * (y 1).val = (y 1).val; omega
    rw [h]
  · show win7_2.index t (1 : Fin 2) * 64 + 1 * (j 1).val = (j 1).val
    omega

/-- An entry lies in tile t iff its row is in row block t. -/
theorem mem_blk (t : Fin cfg7.N) (i : S50000x64.Idx) :
    i ∈ ((cfg7.win 2).blk t).view.set ↔ ∀ a : Fin 2, win7_2.index t a * S5000x64.size a ≤ (i a).val
      ∧ (i a).val < win7_2.index t a * S5000x64.size a + S5000x64.size a := by
  show i ∈ ((View.whole main_v167).slice (win7_2.rect t)).set ↔ _
  rw [View.set_slice_whole, Rect.mem_set_unit]
  exact Iff.rfl

/-- Every entry is in some tile: the one its row falls in. -/
theorem cover (i : S50000x64.Idx) :
    ∃ t : Fin cfg7.N, (cfg7.win 2).flush t = true ∧ i ∈ ((cfg7.win 2).blk t).view.set := by
  have hi0 : (i 0).val < 50000 := (i 0).isLt
  have hi1 : (i 1).val < 64 := (i 1).isLt
  have hN : cfg7.N = 10 := N_7
  obtain ⟨t, ht⟩ : ∃ t : Fin cfg7.N, t.val = (i 0).val / 5000 := ⟨⟨(i 0).val / 5000, by rw [hN]; omega⟩, rfl⟩
  obtain ⟨e0, e1, e2, e3, e4, e5⟩ := idx_facts t
  refine ⟨t, flush7_2 t, ?_⟩
  rw [mem_blk]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 64 ≤ (i 1).val ∧ (i 1).val < win7_2.index t (1 : Fin 2) * 64 + 64; omega

/-- After the region the result array holds A + b of the arrays the region found. -/
theorem final (c : Dev nD) :
    (dat7 V c).arrAt 2 cfg7.N = G (V c main_v165) (V c main_v166) :=
  (dat7 V c).arrAt_eq_of_cover 2 _ (fun t _ => flushed_eq V c t) cover

end Cert.KernelIdeal.Region7

end
-- ==== Proof.RefStages.lean ====
/-
  Two small laws that join the two spellings of a layer.

  (1) Scaling the gathered rows by the edge norm is a pointwise product, and a pointwise product of extended reals does
  not depend on the order of its factors: norm · x[src] = x[src] · norm.  The four stages where one program writes the
  product one way round and the other program the other way round are restated here with the factors exchanged.
  (2) A length-n vector laid out as a 1×n row is the same array whether it is said as a reshape or as a broadcast along
  a new leading axis of extent one: both read entry (0, q) from entry q.
-/
import proofs.«168704_j55499567399318_1_alg».proof.Proof.Gen.ReferenceIdeal.Read
import proofs.«168704_j55499567399318_1_alg».proof.Proof.Layers

noncomputable section

namespace Cert.RefStages

open Idealize.ShloMosaic Idealize.ShloMosaic.ValueIdx Cert.ReferenceIdeal Cert.ReferenceIdeal.Gen Cert.ReferenceIdeal.Read

/-- The 128-entry bias vector as a 1×128 row. -/
def row128 {F : FTy → Type} [FloatOps F] (b : FVec F S128 .f32) : FVec F S1x128 .f32 :=
  broadcastInDim S1x128 ![1] bcast_S128_S1x128_1 b

/-- The 64-entry bias vector as a 1×64 row. -/
def row64 {F : FTy → Type} [FloatOps F] (b : FVec F S64 .f32) : FVec F S1x64 .f32 :=
  broadcastInDim S1x64 ![1] bcast_S64_S1x64_1 b

/-- A pointwise product of two arrays of extended reals does not depend on the order of the factors. -/
theorem mulf_comm {s : Shape} {φ : FTy} (a b : FVec Ideal s φ) : mulf a b = mulf b a :=
  funext fun i => by
    show (a i : EReal) * b i = b i * a i
    exact mul_comm _ _

/-- First layer, first graph: gathered rows times norm. -/
theorem v43_flip (x0 : (⟨S50000x128, .f32⟩ : BufTy).Contents (Elt Ideal)) (x1 : (⟨S2x800000, .i32⟩ : BufTy).Contents (Elt Ideal)) (x2 : (⟨S800000, .f32⟩ : BufTy).Contents (Elt Ideal)) (x7 : (⟨S128x128, .f32⟩ : BufTy).Contents (Elt Ideal)) :
    val_main_v43 (F := Ideal) x0 x1 x2 x7 = mulf (F := Ideal) (s := S850000x128) (φ := .f32) (val_main_v41 (F := Ideal) x0 x1 x7) (val_main_v42 (F := Ideal) x1 x2) := by
  unfold val_main_v43; exact mulf_comm _ _

/-- First layer, second graph: gathered rows times norm. -/
theorem v94_flip (x3 : (⟨S50000x128, .f32⟩ : BufTy).Contents (Elt Ideal)) (x4 : (⟨S2x800000, .i32⟩ : BufTy).Contents (Elt Ideal)) (x5 : (⟨S800000, .f32⟩ : BufTy).Contents (Elt Ideal)) (x9 : (⟨S128x128, .f32⟩ : BufTy).Contents (Elt Ideal)) :
    val_main_v94 (F := Ideal) x3 x4 x5 x9 = mulf (F := Ideal) (s := S850000x128) (φ := .f32) (val_main_v92 (F := Ideal) x3 x4 x9) (val_main_v93 (F := Ideal) x4 x5) := by
  unfold val_main_v94; exact mulf_comm _ _

/-- Second layer, first graph: gathered rows times norm. -/
theorem v184_flip (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S50000x128, .f32⟩ : BufTy).Contents (Elt Ideal)) (x4 : (⟨S2x800000, .i32⟩ : BufTy).Contents (Elt Ideal)) (x5 : (⟨S800000, .f32⟩ : BufTy).Contents (Elt Ideal)) (x6 : (⟨S2x5000, .i32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x64, .f32⟩ : BufTy).Contents (Elt Ideal)) :
    val_main_v184 (F := Ideal) x0 x1 x2 x3 x4 x5 x6 x7 x8 x9 x10 x11
      = mulf (F := Ideal) (s := S850000x64) (φ := .f32) (val_main_v182 (F := Ideal) x0 x1 x2 x3 x4 x5 x6 x7 x8 x9 x10 x11) (val_main_v183 (F := Ideal) x1 x2) := by
  unfold val_main_v184; exact mulf_comm _ _

/-- Second layer, second graph: gathered rows times norm. -/
theorem v235_flip (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S50000x128, .f32⟩ : BufTy).Contents (Elt Ideal)) (x4 : (⟨S2x800000, .i32⟩ : BufTy).Contents (Elt Ideal)) (x5 : (⟨S800000, .f32⟩ : BufTy).Contents (Elt Ideal)) (x6 : (⟨S2x5000, .i32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x64, .f32⟩ : BufTy).Contents (Elt Ideal)) :
    val_main_v235 (F := Ideal) x0 x1 x2 x3 x4 x5 x6 x7 x8 x9 x10 x11
      = mulf (F := Ideal) (s := S850000x64) (φ := .f32) (val_main_v233 (F := Ideal) x0 x1 x2 x3 x4 x5 x6 x7 x8 x9 x10 x11) (val_main_v234 (F := Ideal) x4 x5) := by
  unfold val_main_v235; exact mulf_comm _ _

/-- A length-n vector as a 1×n row: the reshape and the broadcast along a new leading unit axis agree. -/
theorem row_cast_eq_bcast {α : Type} {n : ℕ} (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ ![1]) (hn : n ≠ 1) :
    shapeCast ⟨2, ![1, n]⟩ b h = broadcastInDim ⟨2, ![1, n]⟩ ![1] h' b := by
  funext i
  obtain ⟨u, q, rfl⟩ : ∃ (u : Fin 1) (q : Fin n), i = ix2 u q := ⟨i 0, i 1, eq_ix2 i⟩
  have hu : u.val = 0 := by omega
  rw [shapeCast_apply b h (ix2 u q) (ix1 q) (by
      rw [Shape.rowMajor_val_two, Shape.rowMajor_val_one]
      show q.val = u.val * n + q.val
      rw [hu, Nat.zero_mul, Nat.zero_add]),
    broadcastInDim_apply ![1] h' b (ix2 u q) (ix1 q) (fun a => match a with
      | ⟨0, _⟩ => by show q.val = if n = 1 then 0 else q.val; rw [if_neg hn])]

end Cert.RefStages

end
-- ==== Proof.LibRegionAsOp.lean ====
/-
  A kernel region read as one host operation, and a fold over a concatenation.

  A pallas_call's region changes the buffer contents only at its arrays: each ends at what the pipeline's write-backs
  leave, every other buffer keeps what it held. A host operation changes the contents only at its result buffer. So when
  a valuation agrees with the region's exit contents at each array and with the entry contents everywhere else, it IS
  the region's exit valuation; in particular a region whose one output array ends at a function of its (unchanged) input
  arrays leaves exactly what the host operation computing that function would.
-/
import Idealize.ShloMosaic.Lib.Pipeline.FrameSuffix
import Idealize.ShloMosaic.Lib.StableHlo.Run

noncomputable section

namespace Cert.LibRegionAsOp

open Idealize.ShloMosaic Idealize.SL.Sem

variable {nD : Nat} {τ : Topo} {sig : RefSig} {Val : EltTy → Type}

/-- The contents after two lines of operations run one after the other are those after their concatenation. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- The contents after a one-operation line. -/
theorem after_single (op : HloOp τ sig Val) (V : Valuation τ sig Val) : StableHlo.after [op] V = op.result V := rfl

/-- A region's exit valuation (its arrays at `A`, everything else as entered) is any valuation `V'` that holds `A` at
    the arrays and the entry contents `V` at every other buffer. -/
theorem withArrays_eq_of {gr W : Nat} (win : Fin W → Pipeline.WinSpec sig gr)
    (hinj : Function.Injective (Pipeline.arrRef win)) (c : Dev nD) (V V' : Valuation τ sig Val)
    (A : (w : Fin W) → Buf Val ((win w).arr.view.loc (c.tc : Thread nD τ)))
    (harr : ∀ w, V' (Proc.devRef .tc (Pipeline.arrRef win w)) = A w)
    (hrest : ∀ b : DevRef τ sig, (∀ w, Proc.devRef .tc (Pipeline.arrRef win w) ≠ b) → V' b = V b) :
    Pipeline.withArrays win c V A = V' := by
  funext b
  by_cases h : ∃ w, Proc.devRef .tc (Pipeline.arrRef win w) = b
  · obtain ⟨w, rfl⟩ := h
    rw [Pipeline.withArrays_arr win hinj, harr]
  · unfold Pipeline.withArrays
    rw [dif_neg h, hrest b fun w e => h ⟨w, e⟩]

end Cert.LibRegionAsOp

end
-- ==== Proof.KernelOps.lean ====
/-
  Each tiled region read as one operation on whole arrays, and the program as a straight line of such operations.

  A region changes the buffer contents only at its result array, which ends holding the layer's function of the arrays the
  region read: the projection X W, the projection of a sum (H + H') W, the bias with the clamp max(A + b, 0), or the bias
  A + b.  The bias enters the bias regions as a 1×n row that a host reshape made of the bias vector; a reshape of a
  vector to a row is the broadcast along a new unit axis, so the region's function is stated on the bias vector itself.
  With every region replaced by its operation, the contents at the last boundary are the contents before the first
  region folded through the later host stretches and the eight operations in program order.
-/
import proofs.«168704_j55499567399318_1_alg».proof.Proof.Region0
import proofs.«168704_j55499567399318_1_alg».proof.Proof.Region1
import proofs.«168704_j55499567399318_1_alg».proof.Proof.Region2
import proofs.«168704_j55499567399318_1_alg».proof.Proof.Region3
import proofs.«168704_j55499567399318_1_alg».proof.Proof.Region4
import proofs.«168704_j55499567399318_1_alg».proof.Proof.Region5
import proofs.«168704_j55499567399318_1_alg».proof.Proof.Region6
import proofs.«168704_j55499567399318_1_alg».proof.Proof.Region7
import proofs.«168704_j55499567399318_1_alg».proof.Proof.RefStages
import proofs.«168704_j55499567399318_1_alg».proof.Proof.LibRegionAsOp

set_option maxRecDepth 16384

noncomputable section

namespace Cert.KernelIdeal.Ops

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- Region 0 as one operation: x1 W1. -/
def R0 : HloOp τ sig (Elt Ideal) :=
  binary main_arg0 main_arg7 main_v66 ((fun x w => Cert.Layers.proj128 (F := Ideal) x w) : (⟨S50000x128, .f32⟩ : BufTy).Contents (Elt Ideal) → (⟨S128x128, .f32⟩ : BufTy).Contents (Elt Ideal) → (⟨S50000x128, .f32⟩ : BufTy).Contents (Elt Ideal))

/-- Region 1 as one operation: max(agg + b1, 0), the bias row read from the bias vector itself. -/
def R1 : HloOp τ sig (Elt Ideal) :=
  binary main_v79 main_arg8 main_v81 ((fun a b => Cert.Layers.biasRelu (F := Ideal) a (Cert.RefStages.row128 (F := Ideal) b)) : (⟨S50000x128, .f32⟩ : BufTy).Contents (Elt Ideal) → (⟨S128, .f32⟩ : BufTy).Contents (Elt Ideal) → (⟨S50000x128, .f32⟩ : BufTy).Contents (Elt Ideal))

/-- Region 2 as one operation: x2 W2. -/
def R2 : HloOp τ sig (Elt Ideal) :=
  binary main_arg3 main_arg9 main_v82 ((fun x w => Cert.Layers.proj128 (F := Ideal) x w) : (⟨S50000x128, .f32⟩ : BufTy).Contents (Elt Ideal) → (⟨S128x128, .f32⟩ : BufTy).Contents (Elt Ideal) → (⟨S50000x128, .f32⟩ : BufTy).Contents (Elt Ideal))

/-- Region 3 as one operation: max(agg + b2, 0). -/
def R3 : HloOp τ sig (Elt Ideal) :=
  binary main_v95 main_arg10 main_v97 ((fun a b => Cert.Layers.biasRelu (F := Ideal) a (Cert.RefStages.row128 (F := Ideal) b)) : (⟨S50000x128, .f32⟩ : BufTy).Contents (Elt Ideal) → (⟨S128, .f32⟩ : BufTy).Contents (Elt Ideal) → (⟨S50000x128, .f32⟩ : BufTy).Contents (Elt Ideal))

/-- Region 4 as one operation: (h1 + seeded h2) W3. -/
def R4 : HloOp τ sig (Elt Ideal) :=
  ternary main_v81 main_v135 main_arg11 main_v136 ((fun h s w => Cert.Layers.proj64 (F := Ideal) h s w) : (⟨S50000x128, .f32⟩ : BufTy).Contents (Elt Ideal) → (⟨S50000x128, .f32⟩ : BufTy).Contents (Elt Ideal) → (⟨S128x64, .f32⟩ : BufTy).Contents (Elt Ideal) → (⟨S50000x64, .f32⟩ : BufTy).Contents (Elt Ideal))

/-- Region 5 as one operation: agg + b3. -/
def R5 : HloOp τ sig (Elt Ideal) :=
  binary main_v149 main_arg12 main_v151 ((fun a b => Cert.Layers.bias64 (F := Ideal) a (Cert.RefStages.row64 (F := Ideal) b)) : (⟨S50000x64, .f32⟩ : BufTy).Contents (Elt Ideal) → (⟨S64, .f32⟩ : BufTy).Contents (Elt Ideal) → (⟨S50000x64, .f32⟩ : BufTy).Contents (Elt Ideal))

/-- Region 6 as one operation: (h2 + seeded h1) W3. -/
def R6 : HloOp τ sig (Elt Ideal) :=
  ternary main_v97 main_v116 main_arg11 main_v152 ((fun h s w => Cert.Layers.proj64 (F := Ideal) h s w) : (⟨S50000x128, .f32⟩ : BufTy).Contents (Elt Ideal) → (⟨S50000x128, .f32⟩ : BufTy).Contents (Elt Ideal) → (⟨S128x64, .f32⟩ : BufTy).Contents (Elt Ideal) → (⟨S50000x64, .f32⟩ : BufTy).Contents (Elt Ideal))

/-- Region 7 as one operation: agg + b3. -/
def R7 : HloOp τ sig (Elt Ideal) :=
  binary main_v165 main_arg12 main_v167 ((fun a b => Cert.Layers.bias64 (F := Ideal) a (Cert.RefStages.row64 (F := Ideal) b)) : (⟨S50000x64, .f32⟩ : BufTy).Contents (Elt Ideal) → (⟨S64, .f32⟩ : BufTy).Contents (Elt Ideal) → (⟨S50000x64, .f32⟩ : BufTy).Contents (Elt Ideal))

/-- Region 0 leaves what its one operation would: the result array at the layer's function of the arrays it read,
    every other buffer untouched. -/
theorem W6_eq (c : Dev nD) : W6 m ρ c = (R0).result (W5 m ρ c) := by
  unfold W6
  refine Cert.LibRegionAsOp.withArrays_eq_of spec0 launch0.win.arr_inj c _ _ _ (fun w => ?_) (fun b hb => ?_)
  · match w with
    | ⟨0, _⟩ =>
      show (R0).result (W5 m ρ c) (Proc.devRef .tc main_arg0) = (dat0 (V5 m ρ) c).arrAt 0 cfg0.N
      rw [(dat0 (V5 m ρ) c).arrAt_in 0 rfl cfg0.N, A_eq0]
      show (R0).result (W5 m ρ c) (Proc.devRef .tc main_arg0) = W5 m ρ c (Proc.devRef .tc main_arg0)
      unfold R0
      rw [binary_result_ne]; decide
    | ⟨1, _⟩ =>
      show (R0).result (W5 m ρ c) (Proc.devRef .tc main_arg7) = (dat0 (V5 m ρ) c).arrAt 1 cfg0.N
      rw [(dat0 (V5 m ρ) c).arrAt_in 1 rfl cfg0.N, A_eq0]
      show (R0).result (W5 m ρ c) (Proc.devRef .tc main_arg7) = W5 m ρ c (Proc.devRef .tc main_arg7)
      unfold R0
      rw [binary_result_ne]; decide
    | ⟨2, _⟩ =>
      show (R0).result (W5 m ρ c) (Proc.devRef .tc main_v66) = (dat0 (V5 m ρ) c).arrAt 2 cfg0.N
      rw [Cert.KernelIdeal.Region0.final (V5 m ρ) c]
      show (R0).result (W5 m ρ c) (Proc.devRef .tc main_v66) = _
      unfold R0
      rw [binary_result]
  · unfold R0
    exact HloOp.result_of_not_mem _ _ (by
      rw [binary_writes, Finset.mem_singleton]
      exact fun e => hb 2 e.symm)

/-- Before region 1 the bias row buffer holds the bias vector laid out as a 1×128 row. -/
theorem row1_eq (c : Dev nD) : W7 m ρ c (Proc.devRef .tc main_v80)
    = Cert.RefStages.row128 (F := Ideal) (W7 m ρ c (Proc.devRef .tc main_arg8)) := by
  show StableHlo.after hostOps1 (W6 m ρ c) (Proc.devRef .tc main_v80)
    = Cert.RefStages.row128 (F := Ideal) (StableHlo.after hostOps1 (W6 m ρ c) (Proc.devRef .tc main_arg8))
  simp only [hostOps1]
  after_results
  simp only [Cert.RefStages.row128, Cert.RefStages.row64]
  exact Cert.RefStages.row_cast_eq_bcast _ _ _ (by decide)

/-- Region 1 leaves what its one operation would: the result array at the layer's function of the arrays it read,
    every other buffer untouched. -/
theorem W8_eq (c : Dev nD) : W8 m ρ c = (R1).result (W7 m ρ c) := by
  unfold W8
  refine Cert.LibRegionAsOp.withArrays_eq_of spec1 launch1.win.arr_inj c _ _ _ (fun w => ?_) (fun b hb => ?_)
  · match w with
    | ⟨0, _⟩ =>
      show (R1).result (W7 m ρ c) (Proc.devRef .tc main_v79) = (dat1 (V7 m ρ) c).arrAt 0 cfg1.N
      rw [(dat1 (V7 m ρ) c).arrAt_in 0 rfl cfg1.N, A_eq1]
      show (R1).result (W7 m ρ c) (Proc.devRef .tc main_v79) = W7 m ρ c (Proc.devRef .tc main_v79)
      unfold R1
      rw [binary_result_ne]; decide
    | ⟨1, _⟩ =>
      show (R1).result (W7 m ρ c) (Proc.devRef .tc main_v80) = (dat1 (V7 m ρ) c).arrAt 1 cfg1.N
      rw [(dat1 (V7 m ρ) c).arrAt_in 1 rfl cfg1.N, A_eq1]
      show (R1).result (W7 m ρ c) (Proc.devRef .tc main_v80) = W7 m ρ c (Proc.devRef .tc main_v80)
      unfold R1
      rw [binary_result_ne]; decide
    | ⟨2, _⟩ =>
      show (R1).result (W7 m ρ c) (Proc.devRef .tc main_v81) = (dat1 (V7 m ρ) c).arrAt 2 cfg1.N
      rw [Cert.KernelIdeal.Region1.final (V7 m ρ) c]
      show (R1).result (W7 m ρ c) (Proc.devRef .tc main_v81)
        = Cert.Layers.biasRelu (F := Ideal) (W7 m ρ c (Proc.devRef .tc main_v79)) (W7 m ρ c (Proc.devRef .tc main_v80))
      unfold R1
      rw [binary_result, row1_eq]
  · unfold R1
    exact HloOp.result_of_not_mem _ _ (by
      rw [binary_writes, Finset.mem_singleton]
      exact fun e => hb 2 e.symm)

/-- Region 2 leaves what its one operation would: the result array at the layer's function of the arrays it read,
    every other buffer untouched. -/
theorem W9_eq (c : Dev nD) : W9 m ρ c = (R2).result (W8 m ρ c) := by
  unfold W9
  refine Cert.LibRegionAsOp.withArrays_eq_of spec2 launch2.win.arr_inj c _ _ _ (fun w => ?_) (fun b hb => ?_)
  · match w with
    | ⟨0, _⟩ =>
      show (R2).result (W8 m ρ c) (Proc.devRef .tc main_arg3) = (dat2 (V8 m ρ) c).arrAt 0 cfg2.N
      rw [(dat2 (V8 m ρ) c).arrAt_in 0 rfl cfg2.N, A_eq2]
      show (R2).result (W8 m ρ c) (Proc.devRef .tc main_arg3) = W8 m ρ c (Proc.devRef .tc main_arg3)
      unfold R2
      rw [binary_result_ne]; decide
    | ⟨1, _⟩ =>
      show (R2).result (W8 m ρ c) (Proc.devRef .tc main_arg9) = (dat2 (V8 m ρ) c).arrAt 1 cfg2.N
      rw [(dat2 (V8 m ρ) c).arrAt_in 1 rfl cfg2.N, A_eq2]
      show (R2).result (W8 m ρ c) (Proc.devRef .tc main_arg9) = W8 m ρ c (Proc.devRef .tc main_arg9)
      unfold R2
      rw [binary_result_ne]; decide
    | ⟨2, _⟩ =>
      show (R2).result (W8 m ρ c) (Proc.devRef .tc main_v82) = (dat2 (V8 m ρ) c).arrAt 2 cfg2.N
      rw [Cert.KernelIdeal.Region2.final (V8 m ρ) c]
      show (R2).result (W8 m ρ c) (Proc.devRef .tc main_v82) = _
      unfold R2
      rw [binary_result]
  · unfold R2
    exact HloOp.result_of_not_mem _ _ (by
      rw [binary_writes, Finset.mem_singleton]
      exact fun e => hb 2 e.symm)

/-- Before region 3 the bias row buffer holds the bias vector laid out as a 1×128 row. -/
theorem row3_eq (c : Dev nD) : W10 m ρ c (Proc.devRef .tc main_v96)
    = Cert.RefStages.row128 (F := Ideal) (W10 m ρ c (Proc.devRef .tc main_arg10)) := by
  show StableHlo.after hostOps3 (W9 m ρ c) (Proc.devRef .tc main_v96)
    = Cert.RefStages.row128 (F := Ideal) (StableHlo.after hostOps3 (W9 m ρ c) (Proc.devRef .tc main_arg10))
  simp only [hostOps3]
  after_results
  simp only [Cert.RefStages.row128, Cert.RefStages.row64]
  exact Cert.RefStages.row_cast_eq_bcast _ _ _ (by decide)

/-- Region 3 leaves what its one operation would: the result array at the layer's function of the arrays it read,
    every other buffer untouched. -/
theorem W11_eq (c : Dev nD) : W11 m ρ c = (R3).result (W10 m ρ c) := by
  unfold W11
  refine Cert.LibRegionAsOp.withArrays_eq_of spec3 launch3.win.arr_inj c _ _ _ (fun w => ?_) (fun b hb => ?_)
  · match w with
    | ⟨0, _⟩ =>
      show (R3).result (W10 m ρ c) (Proc.devRef .tc main_v95) = (dat3 (V10 m ρ) c).arrAt 0 cfg3.N
      rw [(dat3 (V10 m ρ) c).arrAt_in 0 rfl cfg3.N, A_eq3]
      show (R3).result (W10 m ρ c) (Proc.devRef .tc main_v95) = W10 m ρ c (Proc.devRef .tc main_v95)
      unfold R3
      rw [binary_result_ne]; decide
    | ⟨1, _⟩ =>
      show (R3).result (W10 m ρ c) (Proc.devRef .tc main_v96) = (dat3 (V10 m ρ) c).arrAt 1 cfg3.N
      rw [(dat3 (V10 m ρ) c).arrAt_in 1 rfl cfg3.N, A_eq3]
      show (R3).result (W10 m ρ c) (Proc.devRef .tc main_v96) = W10 m ρ c (Proc.devRef .tc main_v96)
      unfold R3
      rw [binary_result_ne]; decide
    | ⟨2, _⟩ =>
      show (R3).result (W10 m ρ c) (Proc.devRef .tc main_v97) = (dat3 (V10 m ρ) c).arrAt 2 cfg3.N
      rw [Cert.KernelIdeal.Region3.final (V10 m ρ) c]
      show (R3).result (W10 m ρ c) (Proc.devRef .tc main_v97)
        = Cert.Layers.biasRelu (F := Ideal) (W10 m ρ c (Proc.devRef .tc main_v95)) (W10 m ρ c (Proc.devRef .tc main_v96))
      unfold R3
      rw [binary_result, row3_eq]
  · unfold R3
    exact HloOp.result_of_not_mem _ _ (by
      rw [binary_writes, Finset.mem_singleton]
      exact fun e => hb 2 e.symm)

/-- Region 4 leaves what its one operation would: the result array at the layer's function of the arrays it read,
    every other buffer untouched. -/
theorem W13_eq (c : Dev nD) : W13 m ρ c = (R4).result (W12 m ρ c) := by
  unfold W13
  refine Cert.LibRegionAsOp.withArrays_eq_of spec4 launch4.win.arr_inj c _ _ _ (fun w => ?_) (fun b hb => ?_)
  · match w with
    | ⟨0, _⟩ =>
      show (R4).result (W12 m ρ c) (Proc.devRef .tc main_v81) = (dat4 (V12 m ρ) c).arrAt 0 cfg4.N
      rw [(dat4 (V12 m ρ) c).arrAt_in 0 rfl cfg4.N, A_eq4]
      show (R4).result (W12 m ρ c) (Proc.devRef .tc main_v81) = W12 m ρ c (Proc.devRef .tc main_v81)
      unfold R4
      rw [ternary_result_ne]; decide
    | ⟨1, _⟩ =>
      show (R4).result (W12 m ρ c) (Proc.devRef .tc main_v135) = (dat4 (V12 m ρ) c).arrAt 1 cfg4.N
      rw [(dat4 (V12 m ρ) c).arrAt_in 1 rfl cfg4.N, A_eq4]
      show (R4).result (W12 m ρ c) (Proc.devRef .tc main_v135) = W12 m ρ c (Proc.devRef .tc main_v135)
      unfold R4
      rw [ternary_result_ne]; decide
    | ⟨2, _⟩ =>
      show (R4).result (W12 m ρ c) (Proc.devRef .tc main_arg11) = (dat4 (V12 m ρ) c).arrAt 2 cfg4.N
      rw [(dat4 (V12 m ρ) c).arrAt_in 2 rfl cfg4.N, A_eq4]
      show (R4).result (W12 m ρ c) (Proc.devRef .tc main_arg11) = W12 m ρ c (Proc.devRef .tc main_arg11)
      unfold R4
      rw [ternary_result_ne]; decide
    | ⟨3, _⟩ =>
      show (R4).result (W12 m ρ c) (Proc.devRef .tc main_v136) = (dat4 (V12 m ρ) c).arrAt 3 cfg4.N
      rw [Cert.KernelIdeal.Region4.final (V12 m ρ) c]
      show (R4).result (W12 m ρ c) (Proc.devRef .tc main_v136) = _
      unfold R4
      rw [ternary_result]
  · unfold R4
    exact HloOp.result_of_not_mem _ _ (by
      rw [ternary_writes, Finset.mem_singleton]
      exact fun e => hb 3 e.symm)

/-- Before region 5 the bias row buffer holds the bias vector laid out as a 1×64 row. -/
theorem row5_eq (c : Dev nD) : W14 m ρ c (Proc.devRef .tc main_v150)
    = Cert.RefStages.row64 (F := Ideal) (W14 m ρ c (Proc.devRef .tc main_arg12)) := by
  show StableHlo.after hostOps5 (W13 m ρ c) (Proc.devRef .tc main_v150)
    = Cert.RefStages.row64 (F := Ideal) (StableHlo.after hostOps5 (W13 m ρ c) (Proc.devRef .tc main_arg12))
  simp only [hostOps5]
  after_results
  simp only [Cert.RefStages.row128, Cert.RefStages.row64]
  exact Cert.RefStages.row_cast_eq_bcast _ _ _ (by decide)

/-- Region 5 leaves what its one operation would: the result array at the layer's function of the arrays it read,
    every other buffer untouched. -/
theorem W15_eq (c : Dev nD) : W15 m ρ c = (R5).result (W14 m ρ c) := by
  unfold W15
  refine Cert.LibRegionAsOp.withArrays_eq_of spec5 launch5.win.arr_inj c _ _ _ (fun w => ?_) (fun b hb => ?_)
  · match w with
    | ⟨0, _⟩ =>
      show (R5).result (W14 m ρ c) (Proc.devRef .tc main_v149) = (dat5 (V14 m ρ) c).arrAt 0 cfg5.N
      rw [(dat5 (V14 m ρ) c).arrAt_in 0 rfl cfg5.N, A_eq5]
      show (R5).result (W14 m ρ c) (Proc.devRef .tc main_v149) = W14 m ρ c (Proc.devRef .tc main_v149)
      unfold R5
      rw [binary_result_ne]; decide
    | ⟨1, _⟩ =>
      show (R5).result (W14 m ρ c) (Proc.devRef .tc main_v150) = (dat5 (V14 m ρ) c).arrAt 1 cfg5.N
      rw [(dat5 (V14 m ρ) c).arrAt_in 1 rfl cfg5.N, A_eq5]
      show (R5).result (W14 m ρ c) (Proc.devRef .tc main_v150) = W14 m ρ c (Proc.devRef .tc main_v150)
      unfold R5
      rw [binary_result_ne]; decide
    | ⟨2, _⟩ =>
      show (R5).result (W14 m ρ c) (Proc.devRef .tc main_v151) = (dat5 (V14 m ρ) c).arrAt 2 cfg5.N
      rw [Cert.KernelIdeal.Region5.final (V14 m ρ) c]
      show (R5).result (W14 m ρ c) (Proc.devRef .tc main_v151)
        = Cert.Layers.bias64 (F := Ideal) (W14 m ρ c (Proc.devRef .tc main_v149)) (W14 m ρ c (Proc.devRef .tc main_v150))
      unfold R5
      rw [binary_result, row5_eq]
  · unfold R5
    exact HloOp.result_of_not_mem _ _ (by
      rw [binary_writes, Finset.mem_singleton]
      exact fun e => hb 2 e.symm)

/-- Region 6 leaves what its one operation would: the result array at the layer's function of the arrays it read,
    every other buffer untouched. -/
theorem W16_eq (c : Dev nD) : W16 m ρ c = (R6).result (W15 m ρ c) := by
  unfold W16
  refine Cert.LibRegionAsOp.withArrays_eq_of spec6 launch6.win.arr_inj c _ _ _ (fun w => ?_) (fun b hb => ?_)
  · match w with
    | ⟨0, _⟩ =>
      show (R6).result (W15 m ρ c) (Proc.devRef .tc main_v97) = (dat6 (V15 m ρ) c).arrAt 0 cfg6.N
      rw [(dat6 (V15 m ρ) c).arrAt_in 0 rfl cfg6.N, A_eq6]
      show (R6).result (W15 m ρ c) (Proc.devRef .tc main_v97) = W15 m ρ c (Proc.devRef .tc main_v97)
      unfold R6
      rw [ternary_result_ne]; decide
    | ⟨1, _⟩ =>
      show (R6).result (W15 m ρ c) (Proc.devRef .tc main_v116) = (dat6 (V15 m ρ) c).arrAt 1 cfg6.N
      rw [(dat6 (V15 m ρ) c).arrAt_in 1 rfl cfg6.N, A_eq6]
      show (R6).result (W15 m ρ c) (Proc.devRef .tc main_v116) = W15 m ρ c (Proc.devRef .tc main_v116)
      unfold R6
      rw [ternary_result_ne]; decide
    | ⟨2, _⟩ =>
      show (R6).result (W15 m ρ c) (Proc.devRef .tc main_arg11) = (dat6 (V15 m ρ) c).arrAt 2 cfg6.N
      rw [(dat6 (V15 m ρ) c).arrAt_in 2 rfl cfg6.N, A_eq6]
      show (R6).result (W15 m ρ c) (Proc.devRef .tc main_arg11) = W15 m ρ c (Proc.devRef .tc main_arg11)
      unfold R6
      rw [ternary_result_ne]; decide
    | ⟨3, _⟩ =>
      show (R6).result (W15 m ρ c) (Proc.devRef .tc main_v152) = (dat6 (V15 m ρ) c).arrAt 3 cfg6.N
      rw [Cert.KernelIdeal.Region6.final (V15 m ρ) c]
      show (R6).result (W15 m ρ c) (Proc.devRef .tc main_v152) = _
      unfold R6
      rw [ternary_result]
  · unfold R6
    exact HloOp.result_of_not_mem _ _ (by
      rw [ternary_writes, Finset.mem_singleton]
      exact fun e => hb 3 e.symm)

/-- Before region 7 the bias row buffer holds the bias vector laid out as a 1×64 row. -/
theorem row7_eq (c : Dev nD) : W17 m ρ c (Proc.devRef .tc main_v166)
    = Cert.RefStages.row64 (F := Ideal) (W17 m ρ c (Proc.devRef .tc main_arg12)) := by
  show StableHlo.after hostOps7 (W16 m ρ c) (Proc.devRef .tc main_v166)
    = Cert.RefStages.row64 (F := Ideal) (StableHlo.after hostOps7 (W16 m ρ c) (Proc.devRef .tc main_arg12))
  simp only [hostOps7]
  after_results
  simp only [Cert.RefStages.row128, Cert.RefStages.row64]
  exact Cert.RefStages.row_cast_eq_bcast _ _ _ (by decide)

/-- Region 7 leaves what its one operation would: the result array at the layer's function of the arrays it read,
    every other buffer untouched. -/
theorem W18_eq (c : Dev nD) : W18 m ρ c = (R7).result (W17 m ρ c) := by
  unfold W18
  refine Cert.LibRegionAsOp.withArrays_eq_of spec7 launch7.win.arr_inj c _ _ _ (fun w => ?_) (fun b hb => ?_)
  · match w with
    | ⟨0, _⟩ =>
      show (R7).result (W17 m ρ c) (Proc.devRef .tc main_v165) = (dat7 (V17 m ρ) c).arrAt 0 cfg7.N
      rw [(dat7 (V17 m ρ) c).arrAt_in 0 rfl cfg7.N, A_eq7]
      show (R7).result (W17 m ρ c) (Proc.devRef .tc main_v165) = W17 m ρ c (Proc.devRef .tc main_v165)
      unfold R7
      rw [binary_result_ne]; decide
    | ⟨1, _⟩ =>
      show (R7).result (W17 m ρ c) (Proc.devRef .tc main_v166) = (dat7 (V17 m ρ) c).arrAt 1 cfg7.N
      rw [(dat7 (V17 m ρ) c).arrAt_in 1 rfl cfg7.N, A_eq7]
      show (R7).result (W17 m ρ c) (Proc.devRef .tc main_v166) = W17 m ρ c (Proc.devRef .tc main_v166)
      unfold R7
      rw [binary_result_ne]; decide
    | ⟨2, _⟩ =>
      show (R7).result (W17 m ρ c) (Proc.devRef .tc main_v167) = (dat7 (V17 m ρ) c).arrAt 2 cfg7.N
      rw [Cert.KernelIdeal.Region7.final (V17 m ρ) c]
      show (R7).result (W17 m ρ c) (Proc.devRef .tc main_v167)
        = Cert.Layers.bias64 (F := Ideal) (W17 m ρ c (Proc.devRef .tc main_v165)) (W17 m ρ c (Proc.devRef .tc main_v166))
      unfold R7
      rw [binary_result, row7_eq]
  · unfold R7
    exact HloOp.result_of_not_mem _ _ (by
      rw [binary_writes, Finset.mem_singleton]
      exact fun e => hb 2 e.symm)

/-- The contents at the last boundary: the contents before the first region folded through the later host stretches and
    the eight regions' operations, in program order. -/
theorem W18_unfold (c : Dev nD) : W18 m ρ c
    = (R7).result (StableHlo.after hostOps7 ((R6).result ((R5).result (StableHlo.after hostOps5 ((R4).result
      (StableHlo.after hostOps4 ((R3).result (StableHlo.after hostOps3 ((R2).result ((R1).result
      (StableHlo.after hostOps1 ((R0).result (W5 m ρ c))))))))))))) := by
  rw [W18_eq]; unfold W17
  rw [W16_eq, W15_eq]; unfold W14
  rw [W13_eq]; unfold W12
  rw [W11_eq]; unfold W10
  rw [W9_eq, W8_eq]; unfold W7
  rw [W6_eq]

end Cert.KernelIdeal.Ops

end
-- ==== Proof.EdgeNorm.lean ====
/-
  The edge normalisation, before the first region.

  Per graph: the source and destination lists with one self loop per node appended, the edge weights with ones appended,
  the degree of every node as the segment sum of the weights over destinations, its inverse square root where the degree
  is positive and zero elsewhere, and the norm of every edge, dis[src] · w · dis[dst].  The program computes these with the
  very operations the plain jnp program uses, so at the boundary before the first region the six buffers that later
  stretches read hold the plain program's stages of the same arguments, and the arguments are as launched.
-/
import proofs.«168704_j55499567399318_1_alg».proof.Proof.Gen.KernelIdeal.Frame
import proofs.«168704_j55499567399318_1_alg».proof.Proof.Gen.ReferenceIdeal.Read

set_option maxRecDepth 16384

noncomputable section

namespace Cert.KernelIdeal.EdgeNorm

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The first graph's "where" is one select on whole arrays. -/
theorem where0 : (hostOps0_1 : List (HloOp τ sig (Elt Ideal)))
    = [StableHlo.ternary main_v13 main_v14 main_v15 main_v16 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal))] := rfl

/-- The second graph's "where" is one select on whole arrays. -/
theorem where1 : (hostOps0_3 : List (HloOp τ sig (Elt Ideal)))
    = [StableHlo.ternary main_v46 main_v47 main_v48 main_v49 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal))] := rfl

open Cert.ReferenceIdeal.Read in
/-- First graph: sources with self loops. -/
theorem src1 (c : Dev nD) : W5 m ρ c (Proc.devRef .tc main_v5) = val_main_v6 (F := Ideal) (m ((c.tc : Thread nD τ).loc main_arg1)) := by
  show StableHlo.after hostOps0_4 (StableHlo.after hostOps0_3 (StableHlo.after hostOps0_2 (StableHlo.after hostOps0_1
    (StableHlo.after hostOps0 (W0 m ρ c))))) (Proc.devRef .tc main_v5) = _
  rw [where0, where1]
  simp only [hostOps0, hostOps0_2, hostOps0_4]
  after_results_simp
  simp only [
    val_main_v0, val_main_v1, val_main_v2, val_main_v3, val_main_v4, val_main_v5, val_main_v6, val_main_v7,
    val_main_cst, val_main_v8, val_main_v9, val_main_cst_0, val_main_v10, val_main_v11, val_main_v12, val_main_cst_1,
    val_main_v13, val_main_v14, val_main_v15, val_main_cst_2, val_main_v16, val_main_v17, val_main_c, val_main_v18,
    val_main_v19, val_main_c_3, val_main_v20, val_main_v21, val_main_v22, val_main_v23, val_main_v24, val_main_v25,
    val_main_c_4, val_main_v26, val_main_v27, val_main_c_5, val_main_v28, val_main_v29, val_main_v30, val_main_v31,
    val_main_v32, val_main_v33, val_main_v34, val_main_c_6, val_main_v35, val_main_v36, val_main_c_7, val_main_v37,
    val_main_v38, val_main_v39, val_main_v40, val_main_v41, val_main_v42, val_main_v43, val_main_cst_8, val_main_v44,
    val_main_v45, val_main_v46, val_main_v47, val_main_v48, val_main_v49, val_main_call1_cst, val_main_call1_v0,
    val_main_v50, val_main_v51, val_main_v52, val_main_v53, val_main_v54, val_main_v55, val_main_v56, val_main_v57,
    val_main_v58, val_main_cst_9, val_main_v59, val_main_v60, val_main_cst_10, val_main_v61, val_main_v62,
    val_main_v63, val_main_cst_11, val_main_v64, val_main_v65, val_main_v66, val_main_cst_12, val_main_v67,
    val_main_v68, val_main_c_13, val_main_v69, val_main_v70, val_main_c_14, val_main_v71, val_main_v72, val_main_v73,
    val_main_v74, val_main_v75, val_main_v76, val_main_c_15, val_main_v77, val_main_v78, val_main_c_16, val_main_v79,
    val_main_v80, val_main_v81, val_main_v82, val_main_v83, val_main_v84, val_main_v85, val_main_c_17, val_main_v86,
    val_main_v87, val_main_c_18, val_main_v88, val_main_v89, val_main_v90, val_main_v91, val_main_v92, val_main_v93,
    val_main_v94, val_main_cst_19, val_main_v95, val_main_v96, val_main_v97, val_main_v98, val_main_v99,
    val_main_v100, val_main_call3_cst, val_main_call3_v0, val_main_v101, val_main_cst_20, val_main_v102,
    val_main_v103, val_main_v104, val_main_v105, val_main_v106, val_main_c_21, val_main_v107, val_main_v108,
    val_main_c_22, val_main_v109, val_main_v110, val_main_v111, val_main_v112, val_main_v113, val_main_c_23,
    val_main_v114, val_main_v115, val_main_c_24, val_main_v116, val_main_v117, val_main_v118, val_main_v119,
    val_main_v120, val_main_cst_25, val_main_v121, val_main_v122, val_main_v123, val_main_v124, val_main_v125,
    val_main_c_26, val_main_v126, val_main_v127, val_main_c_27, val_main_v128, val_main_v129, val_main_v130,
    val_main_v131, val_main_v132, val_main_c_28, val_main_v133, val_main_v134, val_main_c_29, val_main_v135,
    val_main_v136, val_main_v137, val_main_v138, val_main_v139, val_main_v140, val_main_v141, val_main_v142,
    val_main_v143, val_main_v144, val_main_v145, val_main_v146, val_main_v147, val_main_v148, val_main_cst_30,
    val_main_v149, val_main_v150, val_main_cst_31, val_main_v151, val_main_v152, val_main_v153, val_main_cst_32,
    val_main_v154, val_main_v155, val_main_v156, val_main_cst_33, val_main_v157, val_main_v158, val_main_c_34,
    val_main_v159, val_main_v160, val_main_c_35, val_main_v161, val_main_v162, val_main_v163, val_main_v164,
    val_main_v165, val_main_v166, val_main_c_36, val_main_v167, val_main_v168, val_main_c_37, val_main_v169,
    val_main_v170, val_main_v171, val_main_v172, val_main_v173, val_main_v174, val_main_v175, val_main_c_38,
    val_main_v176, val_main_v177, val_main_c_39, val_main_v178, val_main_v179, val_main_v180, val_main_v181,
    val_main_v182, val_main_v183, val_main_v184, val_main_cst_40, val_main_v185, val_main_v186, val_main_v187,
    val_main_v188, val_main_v189, val_main_v190, val_main_v191, val_main_v192, val_main_v193, val_main_v194,
    val_main_v195, val_main_v196, val_main_v197, val_main_v198, val_main_v199, val_main_cst_41, val_main_v200,
    val_main_v201, val_main_cst_42, val_main_v202, val_main_v203, val_main_v204, val_main_cst_43, val_main_v205,
    val_main_v206, val_main_v207, val_main_cst_44, val_main_v208, val_main_v209, val_main_c_45, val_main_v210,
    val_main_v211, val_main_c_46, val_main_v212, val_main_v213, val_main_v214, val_main_v215, val_main_v216,
    val_main_v217, val_main_c_47, val_main_v218, val_main_v219, val_main_c_48, val_main_v220, val_main_v221,
    val_main_v222, val_main_v223, val_main_v224, val_main_v225, val_main_v226, val_main_c_49, val_main_v227,
    val_main_v228, val_main_c_50, val_main_v229, val_main_v230, val_main_v231, val_main_v232, val_main_v233,
    val_main_v234, val_main_v235, val_main_cst_51, val_main_v236, val_main_v237, val_main_v238, val_main_v239,
    val_main_v240, val_main_v241]
  rfl

open Cert.ReferenceIdeal.Read in
/-- First graph: destinations with self loops. -/
theorem dst1 (c : Dev nD) : W5 m ρ c (Proc.devRef .tc main_v6) = val_main_v7 (F := Ideal) (m ((c.tc : Thread nD τ).loc main_arg1)) := by
  show StableHlo.after hostOps0_4 (StableHlo.after hostOps0_3 (StableHlo.after hostOps0_2 (StableHlo.after hostOps0_1
    (StableHlo.after hostOps0 (W0 m ρ c))))) (Proc.devRef .tc main_v6) = _
  rw [where0, where1]
  simp only [hostOps0, hostOps0_2, hostOps0_4]
  after_results_simp
  simp only [
    val_main_v0, val_main_v1, val_main_v2, val_main_v3, val_main_v4, val_main_v5, val_main_v6, val_main_v7,
    val_main_cst, val_main_v8, val_main_v9, val_main_cst_0, val_main_v10, val_main_v11, val_main_v12, val_main_cst_1,
    val_main_v13, val_main_v14, val_main_v15, val_main_cst_2, val_main_v16, val_main_v17, val_main_c, val_main_v18,
    val_main_v19, val_main_c_3, val_main_v20, val_main_v21, val_main_v22, val_main_v23, val_main_v24, val_main_v25,
    val_main_c_4, val_main_v26, val_main_v27, val_main_c_5, val_main_v28, val_main_v29, val_main_v30, val_main_v31,
    val_main_v32, val_main_v33, val_main_v34, val_main_c_6, val_main_v35, val_main_v36, val_main_c_7, val_main_v37,
    val_main_v38, val_main_v39, val_main_v40, val_main_v41, val_main_v42, val_main_v43, val_main_cst_8, val_main_v44,
    val_main_v45, val_main_v46, val_main_v47, val_main_v48, val_main_v49, val_main_call1_cst, val_main_call1_v0,
    val_main_v50, val_main_v51, val_main_v52, val_main_v53, val_main_v54, val_main_v55, val_main_v56, val_main_v57,
    val_main_v58, val_main_cst_9, val_main_v59, val_main_v60, val_main_cst_10, val_main_v61, val_main_v62,
    val_main_v63, val_main_cst_11, val_main_v64, val_main_v65, val_main_v66, val_main_cst_12, val_main_v67,
    val_main_v68, val_main_c_13, val_main_v69, val_main_v70, val_main_c_14, val_main_v71, val_main_v72, val_main_v73,
    val_main_v74, val_main_v75, val_main_v76, val_main_c_15, val_main_v77, val_main_v78, val_main_c_16, val_main_v79,
    val_main_v80, val_main_v81, val_main_v82, val_main_v83, val_main_v84, val_main_v85, val_main_c_17, val_main_v86,
    val_main_v87, val_main_c_18, val_main_v88, val_main_v89, val_main_v90, val_main_v91, val_main_v92, val_main_v93,
    val_main_v94, val_main_cst_19, val_main_v95, val_main_v96, val_main_v97, val_main_v98, val_main_v99,
    val_main_v100, val_main_call3_cst, val_main_call3_v0, val_main_v101, val_main_cst_20, val_main_v102,
    val_main_v103, val_main_v104, val_main_v105, val_main_v106, val_main_c_21, val_main_v107, val_main_v108,
    val_main_c_22, val_main_v109, val_main_v110, val_main_v111, val_main_v112, val_main_v113, val_main_c_23,
    val_main_v114, val_main_v115, val_main_c_24, val_main_v116, val_main_v117, val_main_v118, val_main_v119,
    val_main_v120, val_main_cst_25, val_main_v121, val_main_v122, val_main_v123, val_main_v124, val_main_v125,
    val_main_c_26, val_main_v126, val_main_v127, val_main_c_27, val_main_v128, val_main_v129, val_main_v130,
    val_main_v131, val_main_v132, val_main_c_28, val_main_v133, val_main_v134, val_main_c_29, val_main_v135,
    val_main_v136, val_main_v137, val_main_v138, val_main_v139, val_main_v140, val_main_v141, val_main_v142,
    val_main_v143, val_main_v144, val_main_v145, val_main_v146, val_main_v147, val_main_v148, val_main_cst_30,
    val_main_v149, val_main_v150, val_main_cst_31, val_main_v151, val_main_v152, val_main_v153, val_main_cst_32,
    val_main_v154, val_main_v155, val_main_v156, val_main_cst_33, val_main_v157, val_main_v158, val_main_c_34,
    val_main_v159, val_main_v160, val_main_c_35, val_main_v161, val_main_v162, val_main_v163, val_main_v164,
    val_main_v165, val_main_v166, val_main_c_36, val_main_v167, val_main_v168, val_main_c_37, val_main_v169,
    val_main_v170, val_main_v171, val_main_v172, val_main_v173, val_main_v174, val_main_v175, val_main_c_38,
    val_main_v176, val_main_v177, val_main_c_39, val_main_v178, val_main_v179, val_main_v180, val_main_v181,
    val_main_v182, val_main_v183, val_main_v184, val_main_cst_40, val_main_v185, val_main_v186, val_main_v187,
    val_main_v188, val_main_v189, val_main_v190, val_main_v191, val_main_v192, val_main_v193, val_main_v194,
    val_main_v195, val_main_v196, val_main_v197, val_main_v198, val_main_v199, val_main_cst_41, val_main_v200,
    val_main_v201, val_main_cst_42, val_main_v202, val_main_v203, val_main_v204, val_main_cst_43, val_main_v205,
    val_main_v206, val_main_v207, val_main_cst_44, val_main_v208, val_main_v209, val_main_c_45, val_main_v210,
    val_main_v211, val_main_c_46, val_main_v212, val_main_v213, val_main_v214, val_main_v215, val_main_v216,
    val_main_v217, val_main_c_47, val_main_v218, val_main_v219, val_main_c_48, val_main_v220, val_main_v221,
    val_main_v222, val_main_v223, val_main_v224, val_main_v225, val_main_v226, val_main_c_49, val_main_v227,
    val_main_v228, val_main_c_50, val_main_v229, val_main_v230, val_main_v231, val_main_v232, val_main_v233,
    val_main_v234, val_main_v235, val_main_cst_51, val_main_v236, val_main_v237, val_main_v238, val_main_v239,
    val_main_v240, val_main_v241]
  rfl

open Cert.ReferenceIdeal.Read in
/-- First graph: the norm of every edge. -/
theorem norm1 (c : Dev nD) : W5 m ρ c (Proc.devRef .tc main_v32) = val_main_v33 (F := Ideal) (m ((c.tc : Thread nD τ).loc main_arg1)) (m ((c.tc : Thread nD τ).loc main_arg2)) := by
  show StableHlo.after hostOps0_4 (StableHlo.after hostOps0_3 (StableHlo.after hostOps0_2 (StableHlo.after hostOps0_1
    (StableHlo.after hostOps0 (W0 m ρ c))))) (Proc.devRef .tc main_v32) = _
  rw [where0, where1]
  simp only [hostOps0, hostOps0_2, hostOps0_4]
  after_results_simp
  simp only [
    val_main_v0, val_main_v1, val_main_v2, val_main_v3, val_main_v4, val_main_v5, val_main_v6, val_main_v7,
    val_main_cst, val_main_v8, val_main_v9, val_main_cst_0, val_main_v10, val_main_v11, val_main_v12, val_main_cst_1,
    val_main_v13, val_main_v14, val_main_v15, val_main_cst_2, val_main_v16, val_main_v17, val_main_c, val_main_v18,
    val_main_v19, val_main_c_3, val_main_v20, val_main_v21, val_main_v22, val_main_v23, val_main_v24, val_main_v25,
    val_main_c_4, val_main_v26, val_main_v27, val_main_c_5, val_main_v28, val_main_v29, val_main_v30, val_main_v31,
    val_main_v32, val_main_v33, val_main_v34, val_main_c_6, val_main_v35, val_main_v36, val_main_c_7, val_main_v37,
    val_main_v38, val_main_v39, val_main_v40, val_main_v41, val_main_v42, val_main_v43, val_main_cst_8, val_main_v44,
    val_main_v45, val_main_v46, val_main_v47, val_main_v48, val_main_v49, val_main_call1_cst, val_main_call1_v0,
    val_main_v50, val_main_v51, val_main_v52, val_main_v53, val_main_v54, val_main_v55, val_main_v56, val_main_v57,
    val_main_v58, val_main_cst_9, val_main_v59, val_main_v60, val_main_cst_10, val_main_v61, val_main_v62,
    val_main_v63, val_main_cst_11, val_main_v64, val_main_v65, val_main_v66, val_main_cst_12, val_main_v67,
    val_main_v68, val_main_c_13, val_main_v69, val_main_v70, val_main_c_14, val_main_v71, val_main_v72, val_main_v73,
    val_main_v74, val_main_v75, val_main_v76, val_main_c_15, val_main_v77, val_main_v78, val_main_c_16, val_main_v79,
    val_main_v80, val_main_v81, val_main_v82, val_main_v83, val_main_v84, val_main_v85, val_main_c_17, val_main_v86,
    val_main_v87, val_main_c_18, val_main_v88, val_main_v89, val_main_v90, val_main_v91, val_main_v92, val_main_v93,
    val_main_v94, val_main_cst_19, val_main_v95, val_main_v96, val_main_v97, val_main_v98, val_main_v99,
    val_main_v100, val_main_call3_cst, val_main_call3_v0, val_main_v101, val_main_cst_20, val_main_v102,
    val_main_v103, val_main_v104, val_main_v105, val_main_v106, val_main_c_21, val_main_v107, val_main_v108,
    val_main_c_22, val_main_v109, val_main_v110, val_main_v111, val_main_v112, val_main_v113, val_main_c_23,
    val_main_v114, val_main_v115, val_main_c_24, val_main_v116, val_main_v117, val_main_v118, val_main_v119,
    val_main_v120, val_main_cst_25, val_main_v121, val_main_v122, val_main_v123, val_main_v124, val_main_v125,
    val_main_c_26, val_main_v126, val_main_v127, val_main_c_27, val_main_v128, val_main_v129, val_main_v130,
    val_main_v131, val_main_v132, val_main_c_28, val_main_v133, val_main_v134, val_main_c_29, val_main_v135,
    val_main_v136, val_main_v137, val_main_v138, val_main_v139, val_main_v140, val_main_v141, val_main_v142,
    val_main_v143, val_main_v144, val_main_v145, val_main_v146, val_main_v147, val_main_v148, val_main_cst_30,
    val_main_v149, val_main_v150, val_main_cst_31, val_main_v151, val_main_v152, val_main_v153, val_main_cst_32,
    val_main_v154, val_main_v155, val_main_v156, val_main_cst_33, val_main_v157, val_main_v158, val_main_c_34,
    val_main_v159, val_main_v160, val_main_c_35, val_main_v161, val_main_v162, val_main_v163, val_main_v164,
    val_main_v165, val_main_v166, val_main_c_36, val_main_v167, val_main_v168, val_main_c_37, val_main_v169,
    val_main_v170, val_main_v171, val_main_v172, val_main_v173, val_main_v174, val_main_v175, val_main_c_38,
    val_main_v176, val_main_v177, val_main_c_39, val_main_v178, val_main_v179, val_main_v180, val_main_v181,
    val_main_v182, val_main_v183, val_main_v184, val_main_cst_40, val_main_v185, val_main_v186, val_main_v187,
    val_main_v188, val_main_v189, val_main_v190, val_main_v191, val_main_v192, val_main_v193, val_main_v194,
    val_main_v195, val_main_v196, val_main_v197, val_main_v198, val_main_v199, val_main_cst_41, val_main_v200,
    val_main_v201, val_main_cst_42, val_main_v202, val_main_v203, val_main_v204, val_main_cst_43, val_main_v205,
    val_main_v206, val_main_v207, val_main_cst_44, val_main_v208, val_main_v209, val_main_c_45, val_main_v210,
    val_main_v211, val_main_c_46, val_main_v212, val_main_v213, val_main_v214, val_main_v215, val_main_v216,
    val_main_v217, val_main_c_47, val_main_v218, val_main_v219, val_main_c_48, val_main_v220, val_main_v221,
    val_main_v222, val_main_v223, val_main_v224, val_main_v225, val_main_v226, val_main_c_49, val_main_v227,
    val_main_v228, val_main_c_50, val_main_v229, val_main_v230, val_main_v231, val_main_v232, val_main_v233,
    val_main_v234, val_main_v235, val_main_cst_51, val_main_v236, val_main_v237, val_main_v238, val_main_v239,
    val_main_v240, val_main_v241]
  rfl

open Cert.ReferenceIdeal.Read in
/-- Second graph: sources with self loops. -/
theorem src2 (c : Dev nD) : W5 m ρ c (Proc.devRef .tc main_v38) = val_main_v57 (F := Ideal) (m ((c.tc : Thread nD τ).loc main_arg4)) := by
  show StableHlo.after hostOps0_4 (StableHlo.after hostOps0_3 (StableHlo.after hostOps0_2 (StableHlo.after hostOps0_1
    (StableHlo.after hostOps0 (W0 m ρ c))))) (Proc.devRef .tc main_v38) = _
  rw [where0, where1]
  simp only [hostOps0, hostOps0_2, hostOps0_4]
  after_results_simp
  simp only [
    val_main_v0, val_main_v1, val_main_v2, val_main_v3, val_main_v4, val_main_v5, val_main_v6, val_main_v7,
    val_main_cst, val_main_v8, val_main_v9, val_main_cst_0, val_main_v10, val_main_v11, val_main_v12, val_main_cst_1,
    val_main_v13, val_main_v14, val_main_v15, val_main_cst_2, val_main_v16, val_main_v17, val_main_c, val_main_v18,
    val_main_v19, val_main_c_3, val_main_v20, val_main_v21, val_main_v22, val_main_v23, val_main_v24, val_main_v25,
    val_main_c_4, val_main_v26, val_main_v27, val_main_c_5, val_main_v28, val_main_v29, val_main_v30, val_main_v31,
    val_main_v32, val_main_v33, val_main_v34, val_main_c_6, val_main_v35, val_main_v36, val_main_c_7, val_main_v37,
    val_main_v38, val_main_v39, val_main_v40, val_main_v41, val_main_v42, val_main_v43, val_main_cst_8, val_main_v44,
    val_main_v45, val_main_v46, val_main_v47, val_main_v48, val_main_v49, val_main_call1_cst, val_main_call1_v0,
    val_main_v50, val_main_v51, val_main_v52, val_main_v53, val_main_v54, val_main_v55, val_main_v56, val_main_v57,
    val_main_v58, val_main_cst_9, val_main_v59, val_main_v60, val_main_cst_10, val_main_v61, val_main_v62,
    val_main_v63, val_main_cst_11, val_main_v64, val_main_v65, val_main_v66, val_main_cst_12, val_main_v67,
    val_main_v68, val_main_c_13, val_main_v69, val_main_v70, val_main_c_14, val_main_v71, val_main_v72, val_main_v73,
    val_main_v74, val_main_v75, val_main_v76, val_main_c_15, val_main_v77, val_main_v78, val_main_c_16, val_main_v79,
    val_main_v80, val_main_v81, val_main_v82, val_main_v83, val_main_v84, val_main_v85, val_main_c_17, val_main_v86,
    val_main_v87, val_main_c_18, val_main_v88, val_main_v89, val_main_v90, val_main_v91, val_main_v92, val_main_v93,
    val_main_v94, val_main_cst_19, val_main_v95, val_main_v96, val_main_v97, val_main_v98, val_main_v99,
    val_main_v100, val_main_call3_cst, val_main_call3_v0, val_main_v101, val_main_cst_20, val_main_v102,
    val_main_v103, val_main_v104, val_main_v105, val_main_v106, val_main_c_21, val_main_v107, val_main_v108,
    val_main_c_22, val_main_v109, val_main_v110, val_main_v111, val_main_v112, val_main_v113, val_main_c_23,
    val_main_v114, val_main_v115, val_main_c_24, val_main_v116, val_main_v117, val_main_v118, val_main_v119,
    val_main_v120, val_main_cst_25, val_main_v121, val_main_v122, val_main_v123, val_main_v124, val_main_v125,
    val_main_c_26, val_main_v126, val_main_v127, val_main_c_27, val_main_v128, val_main_v129, val_main_v130,
    val_main_v131, val_main_v132, val_main_c_28, val_main_v133, val_main_v134, val_main_c_29, val_main_v135,
    val_main_v136, val_main_v137, val_main_v138, val_main_v139, val_main_v140, val_main_v141, val_main_v142,
    val_main_v143, val_main_v144, val_main_v145, val_main_v146, val_main_v147, val_main_v148, val_main_cst_30,
    val_main_v149, val_main_v150, val_main_cst_31, val_main_v151, val_main_v152, val_main_v153, val_main_cst_32,
    val_main_v154, val_main_v155, val_main_v156, val_main_cst_33, val_main_v157, val_main_v158, val_main_c_34,
    val_main_v159, val_main_v160, val_main_c_35, val_main_v161, val_main_v162, val_main_v163, val_main_v164,
    val_main_v165, val_main_v166, val_main_c_36, val_main_v167, val_main_v168, val_main_c_37, val_main_v169,
    val_main_v170, val_main_v171, val_main_v172, val_main_v173, val_main_v174, val_main_v175, val_main_c_38,
    val_main_v176, val_main_v177, val_main_c_39, val_main_v178, val_main_v179, val_main_v180, val_main_v181,
    val_main_v182, val_main_v183, val_main_v184, val_main_cst_40, val_main_v185, val_main_v186, val_main_v187,
    val_main_v188, val_main_v189, val_main_v190, val_main_v191, val_main_v192, val_main_v193, val_main_v194,
    val_main_v195, val_main_v196, val_main_v197, val_main_v198, val_main_v199, val_main_cst_41, val_main_v200,
    val_main_v201, val_main_cst_42, val_main_v202, val_main_v203, val_main_v204, val_main_cst_43, val_main_v205,
    val_main_v206, val_main_v207, val_main_cst_44, val_main_v208, val_main_v209, val_main_c_45, val_main_v210,
    val_main_v211, val_main_c_46, val_main_v212, val_main_v213, val_main_v214, val_main_v215, val_main_v216,
    val_main_v217, val_main_c_47, val_main_v218, val_main_v219, val_main_c_48, val_main_v220, val_main_v221,
    val_main_v222, val_main_v223, val_main_v224, val_main_v225, val_main_v226, val_main_c_49, val_main_v227,
    val_main_v228, val_main_c_50, val_main_v229, val_main_v230, val_main_v231, val_main_v232, val_main_v233,
    val_main_v234, val_main_v235, val_main_cst_51, val_main_v236, val_main_v237, val_main_v238, val_main_v239,
    val_main_v240, val_main_v241]
  rfl

open Cert.ReferenceIdeal.Read in
/-- Second graph: destinations with self loops. -/
theorem dst2 (c : Dev nD) : W5 m ρ c (Proc.devRef .tc main_v39) = val_main_v58 (F := Ideal) (m ((c.tc : Thread nD τ).loc main_arg4)) := by
  show StableHlo.after hostOps0_4 (StableHlo.after hostOps0_3 (StableHlo.after hostOps0_2 (StableHlo.after hostOps0_1
    (StableHlo.after hostOps0 (W0 m ρ c))))) (Proc.devRef .tc main_v39) = _
  rw [where0, where1]
  simp only [hostOps0, hostOps0_2, hostOps0_4]
  after_results_simp
  simp only [
    val_main_v0, val_main_v1, val_main_v2, val_main_v3, val_main_v4, val_main_v5, val_main_v6, val_main_v7,
    val_main_cst, val_main_v8, val_main_v9, val_main_cst_0, val_main_v10, val_main_v11, val_main_v12, val_main_cst_1,
    val_main_v13, val_main_v14, val_main_v15, val_main_cst_2, val_main_v16, val_main_v17, val_main_c, val_main_v18,
    val_main_v19, val_main_c_3, val_main_v20, val_main_v21, val_main_v22, val_main_v23, val_main_v24, val_main_v25,
    val_main_c_4, val_main_v26, val_main_v27, val_main_c_5, val_main_v28, val_main_v29, val_main_v30, val_main_v31,
    val_main_v32, val_main_v33, val_main_v34, val_main_c_6, val_main_v35, val_main_v36, val_main_c_7, val_main_v37,
    val_main_v38, val_main_v39, val_main_v40, val_main_v41, val_main_v42, val_main_v43, val_main_cst_8, val_main_v44,
    val_main_v45, val_main_v46, val_main_v47, val_main_v48, val_main_v49, val_main_call1_cst, val_main_call1_v0,
    val_main_v50, val_main_v51, val_main_v52, val_main_v53, val_main_v54, val_main_v55, val_main_v56, val_main_v57,
    val_main_v58, val_main_cst_9, val_main_v59, val_main_v60, val_main_cst_10, val_main_v61, val_main_v62,
    val_main_v63, val_main_cst_11, val_main_v64, val_main_v65, val_main_v66, val_main_cst_12, val_main_v67,
    val_main_v68, val_main_c_13, val_main_v69, val_main_v70, val_main_c_14, val_main_v71, val_main_v72, val_main_v73,
    val_main_v74, val_main_v75, val_main_v76, val_main_c_15, val_main_v77, val_main_v78, val_main_c_16, val_main_v79,
    val_main_v80, val_main_v81, val_main_v82, val_main_v83, val_main_v84, val_main_v85, val_main_c_17, val_main_v86,
    val_main_v87, val_main_c_18, val_main_v88, val_main_v89, val_main_v90, val_main_v91, val_main_v92, val_main_v93,
    val_main_v94, val_main_cst_19, val_main_v95, val_main_v96, val_main_v97, val_main_v98, val_main_v99,
    val_main_v100, val_main_call3_cst, val_main_call3_v0, val_main_v101, val_main_cst_20, val_main_v102,
    val_main_v103, val_main_v104, val_main_v105, val_main_v106, val_main_c_21, val_main_v107, val_main_v108,
    val_main_c_22, val_main_v109, val_main_v110, val_main_v111, val_main_v112, val_main_v113, val_main_c_23,
    val_main_v114, val_main_v115, val_main_c_24, val_main_v116, val_main_v117, val_main_v118, val_main_v119,
    val_main_v120, val_main_cst_25, val_main_v121, val_main_v122, val_main_v123, val_main_v124, val_main_v125,
    val_main_c_26, val_main_v126, val_main_v127, val_main_c_27, val_main_v128, val_main_v129, val_main_v130,
    val_main_v131, val_main_v132, val_main_c_28, val_main_v133, val_main_v134, val_main_c_29, val_main_v135,
    val_main_v136, val_main_v137, val_main_v138, val_main_v139, val_main_v140, val_main_v141, val_main_v142,
    val_main_v143, val_main_v144, val_main_v145, val_main_v146, val_main_v147, val_main_v148, val_main_cst_30,
    val_main_v149, val_main_v150, val_main_cst_31, val_main_v151, val_main_v152, val_main_v153, val_main_cst_32,
    val_main_v154, val_main_v155, val_main_v156, val_main_cst_33, val_main_v157, val_main_v158, val_main_c_34,
    val_main_v159, val_main_v160, val_main_c_35, val_main_v161, val_main_v162, val_main_v163, val_main_v164,
    val_main_v165, val_main_v166, val_main_c_36, val_main_v167, val_main_v168, val_main_c_37, val_main_v169,
    val_main_v170, val_main_v171, val_main_v172, val_main_v173, val_main_v174, val_main_v175, val_main_c_38,
    val_main_v176, val_main_v177, val_main_c_39, val_main_v178, val_main_v179, val_main_v180, val_main_v181,
    val_main_v182, val_main_v183, val_main_v184, val_main_cst_40, val_main_v185, val_main_v186, val_main_v187,
    val_main_v188, val_main_v189, val_main_v190, val_main_v191, val_main_v192, val_main_v193, val_main_v194,
    val_main_v195, val_main_v196, val_main_v197, val_main_v198, val_main_v199, val_main_cst_41, val_main_v200,
    val_main_v201, val_main_cst_42, val_main_v202, val_main_v203, val_main_v204, val_main_cst_43, val_main_v205,
    val_main_v206, val_main_v207, val_main_cst_44, val_main_v208, val_main_v209, val_main_c_45, val_main_v210,
    val_main_v211, val_main_c_46, val_main_v212, val_main_v213, val_main_v214, val_main_v215, val_main_v216,
    val_main_v217, val_main_c_47, val_main_v218, val_main_v219, val_main_c_48, val_main_v220, val_main_v221,
    val_main_v222, val_main_v223, val_main_v224, val_main_v225, val_main_v226, val_main_c_49, val_main_v227,
    val_main_v228, val_main_c_50, val_main_v229, val_main_v230, val_main_v231, val_main_v232, val_main_v233,
    val_main_v234, val_main_v235, val_main_cst_51, val_main_v236, val_main_v237, val_main_v238, val_main_v239,
    val_main_v240, val_main_v241]
  rfl

open Cert.ReferenceIdeal.Read in
/-- Second graph: the norm of every edge. -/
theorem norm2 (c : Dev nD) : W5 m ρ c (Proc.devRef .tc main_v65) = val_main_v84 (F := Ideal) (m ((c.tc : Thread nD τ).loc main_arg4)) (m ((c.tc : Thread nD τ).loc main_arg5)) := by
  show StableHlo.after hostOps0_4 (StableHlo.after hostOps0_3 (StableHlo.after hostOps0_2 (StableHlo.after hostOps0_1
    (StableHlo.after hostOps0 (W0 m ρ c))))) (Proc.devRef .tc main_v65) = _
  rw [where0, where1]
  simp only [hostOps0, hostOps0_2, hostOps0_4]
  after_results_simp
  simp only [
    val_main_v0, val_main_v1, val_main_v2, val_main_v3, val_main_v4, val_main_v5, val_main_v6, val_main_v7,
    val_main_cst, val_main_v8, val_main_v9, val_main_cst_0, val_main_v10, val_main_v11, val_main_v12, val_main_cst_1,
    val_main_v13, val_main_v14, val_main_v15, val_main_cst_2, val_main_v16, val_main_v17, val_main_c, val_main_v18,
    val_main_v19, val_main_c_3, val_main_v20, val_main_v21, val_main_v22, val_main_v23, val_main_v24, val_main_v25,
    val_main_c_4, val_main_v26, val_main_v27, val_main_c_5, val_main_v28, val_main_v29, val_main_v30, val_main_v31,
    val_main_v32, val_main_v33, val_main_v34, val_main_c_6, val_main_v35, val_main_v36, val_main_c_7, val_main_v37,
    val_main_v38, val_main_v39, val_main_v40, val_main_v41, val_main_v42, val_main_v43, val_main_cst_8, val_main_v44,
    val_main_v45, val_main_v46, val_main_v47, val_main_v48, val_main_v49, val_main_call1_cst, val_main_call1_v0,
    val_main_v50, val_main_v51, val_main_v52, val_main_v53, val_main_v54, val_main_v55, val_main_v56, val_main_v57,
    val_main_v58, val_main_cst_9, val_main_v59, val_main_v60, val_main_cst_10, val_main_v61, val_main_v62,
    val_main_v63, val_main_cst_11, val_main_v64, val_main_v65, val_main_v66, val_main_cst_12, val_main_v67,
    val_main_v68, val_main_c_13, val_main_v69, val_main_v70, val_main_c_14, val_main_v71, val_main_v72, val_main_v73,
    val_main_v74, val_main_v75, val_main_v76, val_main_c_15, val_main_v77, val_main_v78, val_main_c_16, val_main_v79,
    val_main_v80, val_main_v81, val_main_v82, val_main_v83, val_main_v84, val_main_v85, val_main_c_17, val_main_v86,
    val_main_v87, val_main_c_18, val_main_v88, val_main_v89, val_main_v90, val_main_v91, val_main_v92, val_main_v93,
    val_main_v94, val_main_cst_19, val_main_v95, val_main_v96, val_main_v97, val_main_v98, val_main_v99,
    val_main_v100, val_main_call3_cst, val_main_call3_v0, val_main_v101, val_main_cst_20, val_main_v102,
    val_main_v103, val_main_v104, val_main_v105, val_main_v106, val_main_c_21, val_main_v107, val_main_v108,
    val_main_c_22, val_main_v109, val_main_v110, val_main_v111, val_main_v112, val_main_v113, val_main_c_23,
    val_main_v114, val_main_v115, val_main_c_24, val_main_v116, val_main_v117, val_main_v118, val_main_v119,
    val_main_v120, val_main_cst_25, val_main_v121, val_main_v122, val_main_v123, val_main_v124, val_main_v125,
    val_main_c_26, val_main_v126, val_main_v127, val_main_c_27, val_main_v128, val_main_v129, val_main_v130,
    val_main_v131, val_main_v132, val_main_c_28, val_main_v133, val_main_v134, val_main_c_29, val_main_v135,
    val_main_v136, val_main_v137, val_main_v138, val_main_v139, val_main_v140, val_main_v141, val_main_v142,
    val_main_v143, val_main_v144, val_main_v145, val_main_v146, val_main_v147, val_main_v148, val_main_cst_30,
    val_main_v149, val_main_v150, val_main_cst_31, val_main_v151, val_main_v152, val_main_v153, val_main_cst_32,
    val_main_v154, val_main_v155, val_main_v156, val_main_cst_33, val_main_v157, val_main_v158, val_main_c_34,
    val_main_v159, val_main_v160, val_main_c_35, val_main_v161, val_main_v162, val_main_v163, val_main_v164,
    val_main_v165, val_main_v166, val_main_c_36, val_main_v167, val_main_v168, val_main_c_37, val_main_v169,
    val_main_v170, val_main_v171, val_main_v172, val_main_v173, val_main_v174, val_main_v175, val_main_c_38,
    val_main_v176, val_main_v177, val_main_c_39, val_main_v178, val_main_v179, val_main_v180, val_main_v181,
    val_main_v182, val_main_v183, val_main_v184, val_main_cst_40, val_main_v185, val_main_v186, val_main_v187,
    val_main_v188, val_main_v189, val_main_v190, val_main_v191, val_main_v192, val_main_v193, val_main_v194,
    val_main_v195, val_main_v196, val_main_v197, val_main_v198, val_main_v199, val_main_cst_41, val_main_v200,
    val_main_v201, val_main_cst_42, val_main_v202, val_main_v203, val_main_v204, val_main_cst_43, val_main_v205,
    val_main_v206, val_main_v207, val_main_cst_44, val_main_v208, val_main_v209, val_main_c_45, val_main_v210,
    val_main_v211, val_main_c_46, val_main_v212, val_main_v213, val_main_v214, val_main_v215, val_main_v216,
    val_main_v217, val_main_c_47, val_main_v218, val_main_v219, val_main_c_48, val_main_v220, val_main_v221,
    val_main_v222, val_main_v223, val_main_v224, val_main_v225, val_main_v226, val_main_c_49, val_main_v227,
    val_main_v228, val_main_c_50, val_main_v229, val_main_v230, val_main_v231, val_main_v232, val_main_v233,
    val_main_v234, val_main_v235, val_main_cst_51, val_main_v236, val_main_v237, val_main_v238, val_main_v239,
    val_main_v240, val_main_v241]
  rfl

/-- Argument 0 is still as launched. -/
theorem arg0_at (c : Dev nD) : W5 m ρ c (Proc.devRef .tc main_arg0) = m ((c.tc : Thread nD τ).loc main_arg0) := by
  show StableHlo.after hostOps0_4 (StableHlo.after hostOps0_3 (StableHlo.after hostOps0_2 (StableHlo.after hostOps0_1
    (StableHlo.after hostOps0 (W0 m ρ c))))) (Proc.devRef .tc main_arg0) = _
  rw [where0, where1]
  simp only [hostOps0, hostOps0_2, hostOps0_4]
  after_results_simp

/-- Argument 3 is still as launched. -/
theorem arg3_at (c : Dev nD) : W5 m ρ c (Proc.devRef .tc main_arg3) = m ((c.tc : Thread nD τ).loc main_arg3) := by
  show StableHlo.after hostOps0_4 (StableHlo.after hostOps0_3 (StableHlo.after hostOps0_2 (StableHlo.after hostOps0_1
    (StableHlo.after hostOps0 (W0 m ρ c))))) (Proc.devRef .tc main_arg3) = _
  rw [where0, where1]
  simp only [hostOps0, hostOps0_2, hostOps0_4]
  after_results_simp

/-- Argument 6 is still as launched. -/
theorem arg6_at (c : Dev nD) : W5 m ρ c (Proc.devRef .tc main_arg6) = m ((c.tc : Thread nD τ).loc main_arg6) := by
  show StableHlo.after hostOps0_4 (StableHlo.after hostOps0_3 (StableHlo.after hostOps0_2 (StableHlo.after hostOps0_1
    (StableHlo.after hostOps0 (W0 m ρ c))))) (Proc.devRef .tc main_arg6) = _
  rw [where0, where1]
  simp only [hostOps0, hostOps0_2, hostOps0_4]
  after_results_simp

/-- Argument 7 is still as launched. -/
theorem arg7_at (c : Dev nD) : W5 m ρ c (Proc.devRef .tc main_arg7) = m ((c.tc : Thread nD τ).loc main_arg7) := by
  show StableHlo.after hostOps0_4 (StableHlo.after hostOps0_3 (StableHlo.after hostOps0_2 (StableHlo.after hostOps0_1
    (StableHlo.after hostOps0 (W0 m ρ c))))) (Proc.devRef .tc main_arg7) = _
  rw [where0, where1]
  simp only [hostOps0, hostOps0_2, hostOps0_4]
  after_results_simp

/-- Argument 8 is still as launched. -/
theorem arg8_at (c : Dev nD) : W5 m ρ c (Proc.devRef .tc main_arg8) = m ((c.tc : Thread nD τ).loc main_arg8) := by
  show StableHlo.after hostOps0_4 (StableHlo.after hostOps0_3 (StableHlo.after hostOps0_2 (StableHlo.after hostOps0_1
    (StableHlo.after hostOps0 (W0 m ρ c))))) (Proc.devRef .tc main_arg8) = _
  rw [where0, where1]
  simp only [hostOps0, hostOps0_2, hostOps0_4]
  after_results_simp

/-- Argument 9 is still as launched. -/
theorem arg9_at (c : Dev nD) : W5 m ρ c (Proc.devRef .tc main_arg9) = m ((c.tc : Thread nD τ).loc main_arg9) := by
  show StableHlo.after hostOps0_4 (StableHlo.after hostOps0_3 (StableHlo.after hostOps0_2 (StableHlo.after hostOps0_1
    (StableHlo.after hostOps0 (W0 m ρ c))))) (Proc.devRef .tc main_arg9) = _
  rw [where0, where1]
  simp only [hostOps0, hostOps0_2, hostOps0_4]
  after_results_simp

/-- Argument 10 is still as launched. -/
theorem arg10_at (c : Dev nD) : W5 m ρ c (Proc.devRef .tc main_arg10) = m ((c.tc : Thread nD τ).loc main_arg10) := by
  show StableHlo.after hostOps0_4 (StableHlo.after hostOps0_3 (StableHlo.after hostOps0_2 (StableHlo.after hostOps0_1
    (StableHlo.after hostOps0 (W0 m ρ c))))) (Proc.devRef .tc main_arg10) = _
  rw [where0, where1]
  simp only [hostOps0, hostOps0_2, hostOps0_4]
  after_results_simp

/-- Argument 11 is still as launched. -/
theorem arg11_at (c : Dev nD) : W5 m ρ c (Proc.devRef .tc main_arg11) = m ((c.tc : Thread nD τ).loc main_arg11) := by
  show StableHlo.after hostOps0_4 (StableHlo.after hostOps0_3 (StableHlo.after hostOps0_2 (StableHlo.after hostOps0_1
    (StableHlo.after hostOps0 (W0 m ρ c))))) (Proc.devRef .tc main_arg11) = _
  rw [where0, where1]
  simp only [hostOps0, hostOps0_2, hostOps0_4]
  after_results_simp

/-- Argument 12 is still as launched. -/
theorem arg12_at (c : Dev nD) : W5 m ρ c (Proc.devRef .tc main_arg12) = m ((c.tc : Thread nD τ).loc main_arg12) := by
  show StableHlo.after hostOps0_4 (StableHlo.after hostOps0_3 (StableHlo.after hostOps0_2 (StableHlo.after hostOps0_1
    (StableHlo.after hostOps0 (W0 m ρ c))))) (Proc.devRef .tc main_arg12) = _
  rw [where0, where1]
  simp only [hostOps0, hostOps0_2, hostOps0_4]
  after_results_simp

end Cert.KernelIdeal.EdgeNorm

end
-- ==== Proof.KernelFold.lean ====
/-
  The program's two results as functions of its thirteen arguments.

  Before the first region the buffers hold the edge normalisation of both graphs (EdgeNorm).  From there the program is a
  straight line of array operations, each tiled region read as one operation (KernelOps): per layer the projection, the
  gather of source rows scaled by the norm, the segment sum over destinations, the bias; between the layers the seeded
  cross-propagation.  Folding that line at a result buffer gives the result as a composed term of the arguments, and it
  is the term the plain jnp program computes stage by stage, up to the order of the two factors in "row times norm";
  the stages are taken with that order exchanged, which changes nothing.
-/
import proofs.«168704_j55499567399318_1_alg».proof.Proof.KernelOps
import proofs.«168704_j55499567399318_1_alg».proof.Proof.EdgeNorm

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Ops

variable (m : (ℓ : Loc nD τ sig) → Buf (Elt Ideal) ℓ) (ρ : Dev nD → PrngReg)

open Cert.ReferenceIdeal.Read in
set_option maxHeartbeats 4000000 in
/-- The first result: the second layer on the first graph, as the jnp program's last stage of the arguments. -/
theorem out0 (c : Dev nD) : W18 m ρ c (Proc.devRef .tc main_v151)
    = val_main_v190 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [W18_unfold]
  have h5 := Cert.KernelIdeal.EdgeNorm.src1 m ρ c
  have h6 := Cert.KernelIdeal.EdgeNorm.dst1 m ρ c
  have h32 := Cert.KernelIdeal.EdgeNorm.norm1 m ρ c
  have h38 := Cert.KernelIdeal.EdgeNorm.src2 m ρ c
  have h39 := Cert.KernelIdeal.EdgeNorm.dst2 m ρ c
  have h65 := Cert.KernelIdeal.EdgeNorm.norm2 m ρ c
  have a0 := Cert.KernelIdeal.EdgeNorm.arg0_at m ρ c
  have a3 := Cert.KernelIdeal.EdgeNorm.arg3_at m ρ c
  have a6 := Cert.KernelIdeal.EdgeNorm.arg6_at m ρ c
  have a7 := Cert.KernelIdeal.EdgeNorm.arg7_at m ρ c
  have a8 := Cert.KernelIdeal.EdgeNorm.arg8_at m ρ c
  have a9 := Cert.KernelIdeal.EdgeNorm.arg9_at m ρ c
  have a10 := Cert.KernelIdeal.EdgeNorm.arg10_at m ρ c
  have a11 := Cert.KernelIdeal.EdgeNorm.arg11_at m ρ c
  have a12 := Cert.KernelIdeal.EdgeNorm.arg12_at m ρ c
  generalize W5 m ρ c = V at h5 h6 h32 h38 h39 h65 a0 a3 a6 a7 a8 a9 a10 a11 a12 ⊢
  simp only [hostOps1, hostOps3, hostOps4, hostOps5, hostOps7, R0, R1, R2, R3, R4, R5, R6, R7]
  after_results_simp
  simp only [h5, h6, h32, h38, h39, h65, a0, a3, a6, a7, a8, a9, a10, a11, a12]
  simp only [Cert.RefStages.v43_flip, Cert.RefStages.v94_flip, Cert.RefStages.v184_flip, Cert.RefStages.v235_flip,
    Cert.Layers.proj128, Cert.Layers.proj64, Cert.Layers.biasRelu, Cert.Layers.bias64, Cert.RefStages.row128, Cert.RefStages.row64,
    val_main_v0, val_main_v1, val_main_v2, val_main_v3, val_main_v4, val_main_v5, val_main_v6, val_main_v7,
    val_main_cst, val_main_v8, val_main_v9, val_main_cst_0, val_main_v10, val_main_v11, val_main_v12, val_main_cst_1,
    val_main_v13, val_main_v14, val_main_v15, val_main_cst_2, val_main_v16, val_main_v17, val_main_c, val_main_v18,
    val_main_v19, val_main_c_3, val_main_v20, val_main_v21, val_main_v22, val_main_v23, val_main_v24, val_main_v25,
    val_main_c_4, val_main_v26, val_main_v27, val_main_c_5, val_main_v28, val_main_v29, val_main_v30, val_main_v31,
    val_main_v32, val_main_v33, val_main_v34, val_main_c_6, val_main_v35, val_main_v36, val_main_c_7, val_main_v37,
    val_main_v38, val_main_v39, val_main_v40, val_main_v41, val_main_v42, val_main_cst_8, val_main_v44, val_main_v45,
    val_main_v46, val_main_v47, val_main_v48, val_main_v49, val_main_call1_cst, val_main_call1_v0, val_main_v50,
    val_main_v51, val_main_v52, val_main_v53, val_main_v54, val_main_v55, val_main_v56, val_main_v57, val_main_v58,
    val_main_cst_9, val_main_v59, val_main_v60, val_main_cst_10, val_main_v61, val_main_v62, val_main_v63,
    val_main_cst_11, val_main_v64, val_main_v65, val_main_v66, val_main_cst_12, val_main_v67, val_main_v68,
    val_main_c_13, val_main_v69, val_main_v70, val_main_c_14, val_main_v71, val_main_v72, val_main_v73, val_main_v74,
    val_main_v75, val_main_v76, val_main_c_15, val_main_v77, val_main_v78, val_main_c_16, val_main_v79, val_main_v80,
    val_main_v81, val_main_v82, val_main_v83, val_main_v84, val_main_v85, val_main_c_17, val_main_v86, val_main_v87,
    val_main_c_18, val_main_v88, val_main_v89, val_main_v90, val_main_v91, val_main_v92, val_main_v93,
    val_main_cst_19, val_main_v95, val_main_v96, val_main_v97, val_main_v98, val_main_v99, val_main_v100,
    val_main_call3_cst, val_main_call3_v0, val_main_v101, val_main_cst_20, val_main_v102, val_main_v103,
    val_main_v104, val_main_v105, val_main_v106, val_main_c_21, val_main_v107, val_main_v108, val_main_c_22,
    val_main_v109, val_main_v110, val_main_v111, val_main_v112, val_main_v113, val_main_c_23, val_main_v114,
    val_main_v115, val_main_c_24, val_main_v116, val_main_v117, val_main_v118, val_main_v119, val_main_v120,
    val_main_cst_25, val_main_v121, val_main_v122, val_main_v123, val_main_v124, val_main_v125, val_main_c_26,
    val_main_v126, val_main_v127, val_main_c_27, val_main_v128, val_main_v129, val_main_v130, val_main_v131,
    val_main_v132, val_main_c_28, val_main_v133, val_main_v134, val_main_c_29, val_main_v135, val_main_v136,
    val_main_v137, val_main_v138, val_main_v139, val_main_v140, val_main_v141, val_main_v142, val_main_v143,
    val_main_v144, val_main_v145, val_main_v146, val_main_v147, val_main_v148, val_main_cst_30, val_main_v149,
    val_main_v150, val_main_cst_31, val_main_v151, val_main_v152, val_main_v153, val_main_cst_32, val_main_v154,
    val_main_v155, val_main_v156, val_main_cst_33, val_main_v157, val_main_v158, val_main_c_34, val_main_v159,
    val_main_v160, val_main_c_35, val_main_v161, val_main_v162, val_main_v163, val_main_v164, val_main_v165,
    val_main_v166, val_main_c_36, val_main_v167, val_main_v168, val_main_c_37, val_main_v169, val_main_v170,
    val_main_v171, val_main_v172, val_main_v173, val_main_v174, val_main_v175, val_main_c_38, val_main_v176,
    val_main_v177, val_main_c_39, val_main_v178, val_main_v179, val_main_v180, val_main_v181, val_main_v182,
    val_main_v183, val_main_cst_40, val_main_v185, val_main_v186, val_main_v187, val_main_v188, val_main_v189,
    val_main_v190, val_main_v191, val_main_v192, val_main_v193, val_main_v194, val_main_v195, val_main_v196,
    val_main_v197, val_main_v198, val_main_v199, val_main_cst_41, val_main_v200, val_main_v201, val_main_cst_42,
    val_main_v202, val_main_v203, val_main_v204, val_main_cst_43, val_main_v205, val_main_v206, val_main_v207,
    val_main_cst_44, val_main_v208, val_main_v209, val_main_c_45, val_main_v210, val_main_v211, val_main_c_46,
    val_main_v212, val_main_v213, val_main_v214, val_main_v215, val_main_v216, val_main_v217, val_main_c_47,
    val_main_v218, val_main_v219, val_main_c_48, val_main_v220, val_main_v221, val_main_v222, val_main_v223,
    val_main_v224, val_main_v225, val_main_v226, val_main_c_49, val_main_v227, val_main_v228, val_main_c_50,
    val_main_v229, val_main_v230, val_main_v231, val_main_v232, val_main_v233, val_main_v234, val_main_cst_51,
    val_main_v236, val_main_v237, val_main_v238, val_main_v239, val_main_v240, val_main_v241]
  first | rfl | fail "the two composed terms differ"

open Cert.ReferenceIdeal.Read in
set_option maxHeartbeats 4000000 in
/-- The second result: the second layer on the second graph, as the jnp program's last stage of the arguments. -/
theorem out1 (c : Dev nD) : W18 m ρ c (Proc.devRef .tc main_v167)
    = val_main_v241 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [W18_unfold]
  have h5 := Cert.KernelIdeal.EdgeNorm.src1 m ρ c
  have h6 := Cert.KernelIdeal.EdgeNorm.dst1 m ρ c
  have h32 := Cert.KernelIdeal.EdgeNorm.norm1 m ρ c
  have h38 := Cert.KernelIdeal.EdgeNorm.src2 m ρ c
  have h39 := Cert.KernelIdeal.EdgeNorm.dst2 m ρ c
  have h65 := Cert.KernelIdeal.EdgeNorm.norm2 m ρ c
  have a0 := Cert.KernelIdeal.EdgeNorm.arg0_at m ρ c
  have a3 := Cert.KernelIdeal.EdgeNorm.arg3_at m ρ c
  have a6 := Cert.KernelIdeal.EdgeNorm.arg6_at m ρ c
  have a7 := Cert.KernelIdeal.EdgeNorm.arg7_at m ρ c
  have a8 := Cert.KernelIdeal.EdgeNorm.arg8_at m ρ c
  have a9 := Cert.KernelIdeal.EdgeNorm.arg9_at m ρ c
  have a10 := Cert.KernelIdeal.EdgeNorm.arg10_at m ρ c
  have a11 := Cert.KernelIdeal.EdgeNorm.arg11_at m ρ c
  have a12 := Cert.KernelIdeal.EdgeNorm.arg12_at m ρ c
  generalize W5 m ρ c = V at h5 h6 h32 h38 h39 h65 a0 a3 a6 a7 a8 a9 a10 a11 a12 ⊢
  simp only [hostOps1, hostOps3, hostOps4, hostOps5, hostOps7, R0, R1, R2, R3, R4, R5, R6, R7]
  after_results_simp
  simp only [h5, h6, h32, h38, h39, h65, a0, a3, a6, a7, a8, a9, a10, a11, a12]
  simp only [Cert.RefStages.v43_flip, Cert.RefStages.v94_flip, Cert.RefStages.v184_flip, Cert.RefStages.v235_flip,
    Cert.Layers.proj128, Cert.Layers.proj64, Cert.Layers.biasRelu, Cert.Layers.bias64, Cert.RefStages.row128, Cert.RefStages.row64,
    val_main_v0, val_main_v1, val_main_v2, val_main_v3, val_main_v4, val_main_v5, val_main_v6, val_main_v7,
    val_main_cst, val_main_v8, val_main_v9, val_main_cst_0, val_main_v10, val_main_v11, val_main_v12, val_main_cst_1,
    val_main_v13, val_main_v14, val_main_v15, val_main_cst_2, val_main_v16, val_main_v17, val_main_c, val_main_v18,
    val_main_v19, val_main_c_3, val_main_v20, val_main_v21, val_main_v22, val_main_v23, val_main_v24, val_main_v25,
    val_main_c_4, val_main_v26, val_main_v27, val_main_c_5, val_main_v28, val_main_v29, val_main_v30, val_main_v31,
    val_main_v32, val_main_v33, val_main_v34, val_main_c_6, val_main_v35, val_main_v36, val_main_c_7, val_main_v37,
    val_main_v38, val_main_v39, val_main_v40, val_main_v41, val_main_v42, val_main_cst_8, val_main_v44, val_main_v45,
    val_main_v46, val_main_v47, val_main_v48, val_main_v49, val_main_call1_cst, val_main_call1_v0, val_main_v50,
    val_main_v51, val_main_v52, val_main_v53, val_main_v54, val_main_v55, val_main_v56, val_main_v57, val_main_v58,
    val_main_cst_9, val_main_v59, val_main_v60, val_main_cst_10, val_main_v61, val_main_v62, val_main_v63,
    val_main_cst_11, val_main_v64, val_main_v65, val_main_v66, val_main_cst_12, val_main_v67, val_main_v68,
    val_main_c_13, val_main_v69, val_main_v70, val_main_c_14, val_main_v71, val_main_v72, val_main_v73, val_main_v74,
    val_main_v75, val_main_v76, val_main_c_15, val_main_v77, val_main_v78, val_main_c_16, val_main_v79, val_main_v80,
    val_main_v81, val_main_v82, val_main_v83, val_main_v84, val_main_v85, val_main_c_17, val_main_v86, val_main_v87,
    val_main_c_18, val_main_v88, val_main_v89, val_main_v90, val_main_v91, val_main_v92, val_main_v93,
    val_main_cst_19, val_main_v95, val_main_v96, val_main_v97, val_main_v98, val_main_v99, val_main_v100,
    val_main_call3_cst, val_main_call3_v0, val_main_v101, val_main_cst_20, val_main_v102, val_main_v103,
    val_main_v104, val_main_v105, val_main_v106, val_main_c_21, val_main_v107, val_main_v108, val_main_c_22,
    val_main_v109, val_main_v110, val_main_v111, val_main_v112, val_main_v113, val_main_c_23, val_main_v114,
    val_main_v115, val_main_c_24, val_main_v116, val_main_v117, val_main_v118, val_main_v119, val_main_v120,
    val_main_cst_25, val_main_v121, val_main_v122, val_main_v123, val_main_v124, val_main_v125, val_main_c_26,
    val_main_v126, val_main_v127, val_main_c_27, val_main_v128, val_main_v129, val_main_v130, val_main_v131,
    val_main_v132, val_main_c_28, val_main_v133, val_main_v134, val_main_c_29, val_main_v135, val_main_v136,
    val_main_v137, val_main_v138, val_main_v139, val_main_v140, val_main_v141, val_main_v142, val_main_v143,
    val_main_v144, val_main_v145, val_main_v146, val_main_v147, val_main_v148, val_main_cst_30, val_main_v149,
    val_main_v150, val_main_cst_31, val_main_v151, val_main_v152, val_main_v153, val_main_cst_32, val_main_v154,
    val_main_v155, val_main_v156, val_main_cst_33, val_main_v157, val_main_v158, val_main_c_34, val_main_v159,
    val_main_v160, val_main_c_35, val_main_v161, val_main_v162, val_main_v163, val_main_v164, val_main_v165,
    val_main_v166, val_main_c_36, val_main_v167, val_main_v168, val_main_c_37, val_main_v169, val_main_v170,
    val_main_v171, val_main_v172, val_main_v173, val_main_v174, val_main_v175, val_main_c_38, val_main_v176,
    val_main_v177, val_main_c_39, val_main_v178, val_main_v179, val_main_v180, val_main_v181, val_main_v182,
    val_main_v183, val_main_cst_40, val_main_v185, val_main_v186, val_main_v187, val_main_v188, val_main_v189,
    val_main_v190, val_main_v191, val_main_v192, val_main_v193, val_main_v194, val_main_v195, val_main_v196,
    val_main_v197, val_main_v198, val_main_v199, val_main_cst_41, val_main_v200, val_main_v201, val_main_cst_42,
    val_main_v202, val_main_v203, val_main_v204, val_main_cst_43, val_main_v205, val_main_v206, val_main_v207,
    val_main_cst_44, val_main_v208, val_main_v209, val_main_c_45, val_main_v210, val_main_v211, val_main_c_46,
    val_main_v212, val_main_v213, val_main_v214, val_main_v215, val_main_v216, val_main_v217, val_main_c_47,
    val_main_v218, val_main_v219, val_main_c_48, val_main_v220, val_main_v221, val_main_v222, val_main_v223,
    val_main_v224, val_main_v225, val_main_v226, val_main_c_49, val_main_v227, val_main_v228, val_main_c_50,
    val_main_v229, val_main_v230, val_main_v231, val_main_v232, val_main_v233, val_main_v234, val_main_cst_51,
    val_main_v236, val_main_v237, val_main_v238, val_main_v239, val_main_v240, val_main_v241]
  first | rfl | fail "the two composed terms differ"

end Cert.KernelIdeal.Fold

end
-- ==== Proof.lean ====
/-
  Two-layer graph convolution on two graphs with seeded cross-propagation: the tiled program against the plain one,
  over the extended reals.

  Both programs compute, per graph, the symmetric edge normalisation (self loops appended, degrees by a segment sum,
  inverse square roots where the degree is positive, norm = dis[src] · w · dis[dst]) and per layer
      out = segment_sum(norm · (X W)[src], dst) + b,
  the first layer clamped at zero, the second applied to H + (the other graph's H scattered onto the seed rows).
  The tiled program does the dense steps (X W, (H + H') W, adding the bias, the clamp) in row tiles of 5000 and the sparse
  steps with the same gather / scatter operations as the plain program; it computes each graph's normalisation once
  where the plain program recomputes it per layer.  Over the extended reals a change of float format is the identity and
  a matrix product into a zero accumulator is the plain sum of products, so each tiled region leaves exactly the
  whole-array function the plain program applies (Region0 … Region7); folding the program's operations at its two result
  buffers gives the plain program's last stages of the same arguments (KernelFold), the only algebra being the
  commutativity of the pointwise product norm · row = row · norm.  No law used needs finiteness, so the precondition
  is never opened.  The ideal pass rewrote nothing, so its conjunct is trivial; the frames are the generated ones, the
  plain program's being its generated run with the results dropped.
-/
import proofs.«168704_j55499567399318_1_alg».proof.Defs
import proofs.«168704_j55499567399318_1_alg».proof.Proof.Gen.Kernel
import proofs.«168704_j55499567399318_1_alg».proof.Proof.Gen.Kernel.Skeleton
import proofs.«168704_j55499567399318_1_alg».proof.Proof.Gen.Kernel.Launch
import proofs.«168704_j55499567399318_1_alg».proof.Proof.Gen.Kernel.Points
import proofs.«168704_j55499567399318_1_alg».proof.Proof.Gen.Kernel.Frame
import proofs.«168704_j55499567399318_1_alg».proof.Proof.Gen.KernelIdeal
import proofs.«168704_j55499567399318_1_alg».proof.Proof.Gen.KernelIdeal.Skeleton
import proofs.«168704_j55499567399318_1_alg».proof.Proof.Gen.KernelIdeal.Launch
import proofs.«168704_j55499567399318_1_alg».proof.Proof.Gen.KernelIdeal.Points
import proofs.«168704_j55499567399318_1_alg».proof.Proof.Gen.KernelIdeal.Frame
import proofs.«168704_j55499567399318_1_alg».proof.Proof.Gen.ReferenceIdeal
import proofs.«168704_j55499567399318_1_alg».proof.Proof.Gen.Pre_finite_inputs
import proofs.«168704_j55499567399318_1_alg».proof.Proof.Gen.ReferenceIdeal.Run
import proofs.«168704_j55499567399318_1_alg».proof.Proof.Gen.ReferenceIdeal.Read
import proofs.«168704_j55499567399318_1_alg».proof.Proof.KernelRun
import proofs.«168704_j55499567399318_1_alg».proof.Proof.KernelFold
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The plain program's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the thirteen arguments both programs end with the same two arrays: the tiled program's
    results are the plain program's last stages of its own arguments, which are the plain program's arguments. -/
theorem algebraic : Cert.algebraic_KernelIdeal_ReferenceIdeal := by
  intro m ρ m' ρ' _ hagree
  refine ⟨fun c => Cert.KernelIdeal.Gen.W18 m ρ c (Proc.devRef .tc Cert.KernelIdeal.main_v151),
    fun c => Cert.KernelIdeal.Gen.W18 m ρ c (Proc.devRef .tc Cert.KernelIdeal.main_v167),
    Cert.KernelIdeal.Gen.run_results m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12⟩ := hagree c
    rw [Cert.ReferenceIdeal.Read.val_main_v190_eq, e0, e1, e2, e3, e4, e5, e6, e7, e8, e9, e10, e11, e12]
    exact (Cert.KernelIdeal.Fold.out0 m ρ c).symm
  · obtain ⟨e0, e1, e2, e3, e4, e5, e6, e7, e8, e9, e10, e11, e12⟩ := hagree c
    rw [Cert.ReferenceIdeal.Read.val_main_v241_eq, e0, e1, e2, e3, e4, e5, e6, e7, e8, e9, e10, e11, e12]
    exact (Cert.KernelIdeal.Fold.out1 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
